-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x40 : Shape := ⟨2, ![256, 40]⟩
abbrev S40 : Shape := ⟨1, ![40]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S256x40 .f32) (main_arg9 : FVec F S40 .f32) (main_v33 : IVec S_ 1) : IVec S_ 1 :=
  let main_v34 : FVec F S256x40 .f32 := Host.absf main_arg8
  let main_cst_12 : FVec F S_ .f32 := constant S_ .f32 0x7F800000#32
  let main_v35 : FVec F S256x40 .f32 := broadcastInDim S256x40 ![] bcast_S_S256x40 main_cst_12
  let main_v36 : IVec S256x40 1 := cmpf .olt main_v34 main_v35
  let main_c_13 : IVec S_ 1 := constantI S_ 1 1#1
  let main_v37 : IVec S_ 1 := (fun x v => Host.reduce IntOp.andi x v reducesTo_S256x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S256 .f32) (main_arg6 : FVec F S256x256 .f32) (main_arg7 : FVec F S256 .f32) (main_arg8 : FVec F S256x40 .f32) (main_arg9 : FVec F S40 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S50000x256 .f32) (main_arg1 : IVec S2x800000 32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S256x40 .f32) (main_arg9 : FVec F S40 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x40 : Shape := ⟨2, ![256, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x256 : Shape := ⟨2, ![5000, 256]⟩
abbrev S850000x256 : Shape := ⟨2, ![850000, 256]⟩
abbrev S1x256 : Shape := ⟨2, ![1, 256]⟩
abbrev S50000x40 : Shape := ⟨2, ![50000, 40]⟩
abbrev S5000x40 : Shape := ⟨2, ![5000, 40]⟩
abbrev S850000x40 : Shape := ⟨2, ![850000, 40]⟩
abbrev S1x40 : Shape := ⟨2, ![1, 40]⟩

abbrev nBuf : Space → Nat
  | .hbm => 139
  | .vmem => 20
  | .smem => 0
  | _ => 0

abbrev hbmTy0_0 (i : Nat) : BufTy := match i % 128 with
  | 0 => ⟨S50000x256, .f32⟩
  | 1 => ⟨S2x800000, .i32⟩
  | 2 => ⟨S256x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x40, .f32⟩
  | 9 => ⟨S40, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S50000x256, .f32⟩
  | 51 => ⟨S850000x1, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x256, .f32⟩
  | 61 => ⟨S850000x256, .f32⟩
  | 62 => ⟨S850000x256, .f32⟩
  | 63 => ⟨S_, .f32⟩
  | 64 => ⟨S50000x256, .f32⟩
  | 65 => ⟨S850000x1, .i32⟩
  | 66 => ⟨S50000x256, .f32⟩
  | 67 => ⟨S1x256, .f32⟩
  | 68 => ⟨S50000x256, .f32⟩
  | 69 => ⟨S50000x256, .f32⟩
  | 70 => ⟨S_, .f32⟩
  | 71 => ⟨S50000x256, .f32⟩
  | 72 => ⟨S50000x256, .f32⟩
  | 73 => ⟨S50000x256, .f32⟩
  | 74 => ⟨S850000x1, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000x256, .f32⟩
  | 84 => ⟨S850000x256, .f32⟩
  | 85 => ⟨S850000x256, .f32⟩
  | 86 => ⟨S_, .f32⟩
  | 87 => ⟨S50000x256, .f32⟩
  | 88 => ⟨S850000x1, .i32⟩
  | 89 => ⟨S50000x256, .f32⟩
  | 90 => ⟨S1x256, .f32⟩
  | 91 => ⟨S50000x256, .f32⟩
  | 92 => ⟨S50000x256, .f32⟩
  | 93 => ⟨S_, .f32⟩
  | 94 => ⟨S50000x256, .f32⟩
  | 95 => ⟨S50000x256, .f32⟩
  | 96 => ⟨S50000x256, .f32⟩
  | 97 => ⟨S850000x1, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000x256, .f32⟩
  | 107 => ⟨S850000x256, .f32⟩
  | 108 => ⟨S850000x256, .f32⟩
  | 109 => ⟨S_, .f32⟩
  | 110 => ⟨S50000x256, .f32⟩
  | 111 => ⟨S850000x1, .i32⟩
  | 112 => ⟨S50000x256, .f32⟩
  | 113 => ⟨S1x256, .f32⟩
  | 114 => ⟨S50000x256, .f32⟩
  | 115 => ⟨S50000x256, .f32⟩
  | 116 => ⟨S_, .f32⟩
  | 117 => ⟨S50000x256, .f32⟩
  | 118 => ⟨S50000x256, .f32⟩
  | 119 => ⟨S50000x40, .f32⟩
  | 120 => ⟨S850000x1, .f32⟩
  | 121 => ⟨S_, .i32⟩
  | 122 => ⟨S850000, .i32⟩
  | 123 => ⟨S850000, .i1⟩
  | 124 => ⟨S_, .i32⟩
  | 125 => ⟨S850000, .i32⟩
  | 126 => ⟨S850000, .i32⟩
  | 127 => ⟨S850000, .i32⟩
  | _ => ⟨S50000x256, .f32⟩

abbrev hbmTy0_1 (i : Nat) : BufTy := match i % 128 with
  | 0 => ⟨S850000x1, .i32⟩
  | 1 => ⟨S850000x40, .f32⟩
  | 2 => ⟨S850000x40, .f32⟩
  | 3 => ⟨S850000x40, .f32⟩
  | 4 => ⟨S_, .f32⟩
  | 5 => ⟨S50000x40, .f32⟩
  | 6 => ⟨S850000x1, .i32⟩
  | 7 => ⟨S50000x40, .f32⟩
  | 8 => ⟨S1x40, .f32⟩
  | 9 => ⟨S50000x40, .f32⟩
  | 10 => ⟨S50000x40, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S256x256, .f32⟩
  | .local _ .vmem, ⟨13, _⟩ => ⟨S5000x256, .f32⟩
  | .local _ .vmem, ⟨14, _⟩ => ⟨S5000x256, .f32⟩
  | .local _ .vmem, ⟨15, _⟩ => ⟨S5000x256, .f32⟩
  | .local _ .vmem, ⟨16, _⟩ => ⟨S5000x256, .f32⟩
  | .local _ .vmem, ⟨17, _⟩ => ⟨S256x40, .f32⟩
  | .local _ .vmem, ⟨18, _⟩ => ⟨S5000x40, .f32⟩
  | .local _ .vmem, ⟨19, _⟩ => ⟨S5000x40, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_9 : Ref sig .tc := ⟨.hbm, 75, rfl⟩
abbrev main_v50 : Ref sig .tc := ⟨.hbm, 76, rfl⟩
abbrev main_v51 : Ref sig .tc := ⟨.hbm, 77, rfl⟩
abbrev main_c_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_12 : Ref sig .tc := ⟨.hbm, 98, rfl⟩
abbrev main_v68 : Ref sig .tc := ⟨.hbm, 99, rfl⟩
abbrev main_v69 : Ref sig .tc := ⟨.hbm, 100, rfl⟩
abbrev main_c_13 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_call3_cst : Ref sig .tc := ⟨.hbm, 116, rfl⟩
abbrev main_call3_v0 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_c_15 : Ref sig .tc := ⟨.hbm, 121, rfl⟩
abbrev main_v86 : Ref sig .tc := ⟨.hbm, 122, rfl⟩
abbrev main_v87 : Ref sig .tc := ⟨.hbm, 123, rfl⟩
abbrev main_c_16 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_17 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  inb_S256x40_S256x40_0_0 : ∀ a, (![0, 0] : Fin 2 → Nat) a + S256x40.size a ≤ S256x40.size a
  h_S256x40 : 0 < S256x40.numel
  inb_S5000x40_S5000x40_0_0 : ∀ a, (![0, 0] : Fin 2 → Nat) a + S5000x40.size a ≤ S5000x40.size a
  h_S5000x40 : 0 < S5000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x256_S5000x256_1_0_0_1_n_n_wf : DotDims.WF S5000x256 S256x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x40_S5000x40_1_0_0_1_n_n_wf : DotDims.WF S5000x256 S256x40 S5000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x40.size a ≤ S256x40.size a
  hwx3_1 : ∀ i : grid3.Coords, EltTy.bits .f32 = 32 ∨ (Rect.block (s := S256x40) S256x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S50000x40.size a
  hwx3_2 : ∀ i : grid3.Coords, EltTy.bits .f32 = 32 ∨ (Rect.block (s := S50000x40) S5000x40.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x40_S5000x40_1_0_0_1_n_n : DotDims S5000x256 S256x40 S5000x40 where
  lhsContracting := [1]
  rhsContracting := [0]
  lhsNonContracting := [0]
  rhsNonContracting := [1]
  lhsBatch := []
  rhsBatch := []
  wf := dot_S5000x256_S256x40_S5000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v83) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S256x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v84) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x40 : Shape := ⟨2, ![256, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x40 : Shape := ⟨2, ![50000, 40]⟩
abbrev S850000x40 : Shape := ⟨2, ![850000, 40]⟩
abbrev S1x40 : Shape := ⟨2, ![1, 40]⟩

abbrev nBuf : Space → Nat
  | .hbm => 139
  | .vmem => 0
  | .smem => 0
  | _ => 0

abbrev hbmTy0_0 (i : Nat) : BufTy := match i % 128 with
  | 0 => ⟨S50000x256, .f32⟩
  | 1 => ⟨S2x800000, .i32⟩
  | 2 => ⟨S256x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x40, .f32⟩
  | 9 => ⟨S40, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S50000x256, .f32⟩
  | 51 => ⟨S850000x1, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x256, .f32⟩
  | 61 => ⟨S850000x256, .f32⟩
  | 62 => ⟨S850000x256, .f32⟩
  | 63 => ⟨S_, .f32⟩
  | 64 => ⟨S50000x256, .f32⟩
  | 65 => ⟨S850000x1, .i32⟩
  | 66 => ⟨S50000x256, .f32⟩
  | 67 => ⟨S1x256, .f32⟩
  | 68 => ⟨S50000x256, .f32⟩
  | 69 => ⟨S50000x256, .f32⟩
  | 70 => ⟨S_, .f32⟩
  | 71 => ⟨S50000x256, .f32⟩
  | 72 => ⟨S50000x256, .f32⟩
  | 73 => ⟨S50000x256, .f32⟩
  | 74 => ⟨S850000x1, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000x256, .f32⟩
  | 84 => ⟨S850000x256, .f32⟩
  | 85 => ⟨S850000x256, .f32⟩
  | 86 => ⟨S_, .f32⟩
  | 87 => ⟨S50000x256, .f32⟩
  | 88 => ⟨S850000x1, .i32⟩
  | 89 => ⟨S50000x256, .f32⟩
  | 90 => ⟨S1x256, .f32⟩
  | 91 => ⟨S50000x256, .f32⟩
  | 92 => ⟨S50000x256, .f32⟩
  | 93 => ⟨S_, .f32⟩
  | 94 => ⟨S50000x256, .f32⟩
  | 95 => ⟨S50000x256, .f32⟩
  | 96 => ⟨S50000x256, .f32⟩
  | 97 => ⟨S850000x1, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000x256, .f32⟩
  | 107 => ⟨S850000x256, .f32⟩
  | 108 => ⟨S850000x256, .f32⟩
  | 109 => ⟨S_, .f32⟩
  | 110 => ⟨S50000x256, .f32⟩
  | 111 => ⟨S850000x1, .i32⟩
  | 112 => ⟨S50000x256, .f32⟩
  | 113 => ⟨S1x256, .f32⟩
  | 114 => ⟨S50000x256, .f32⟩
  | 115 => ⟨S50000x256, .f32⟩
  | 116 => ⟨S_, .f32⟩
  | 117 => ⟨S50000x256, .f32⟩
  | 118 => ⟨S50000x256, .f32⟩
  | 119 => ⟨S50000x40, .f32⟩
  | 120 => ⟨S850000x1, .f32⟩
  | 121 => ⟨S_, .i32⟩
  | 122 => ⟨S850000, .i32⟩
  | 123 => ⟨S850000, .i1⟩
  | 124 => ⟨S_, .i32⟩
  | 125 => ⟨S850000, .i32⟩
  | 126 => ⟨S850000, .i32⟩
  | 127 => ⟨S850000, .i32⟩
  | _ => ⟨S50000x256, .f32⟩

abbrev hbmTy0_1 (i : Nat) : BufTy := match i % 128 with
  | 0 => ⟨S850000x1, .i32⟩
  | 1 => ⟨S850000x40, .f32⟩
  | 2 => ⟨S850000x40, .f32⟩
  | 3 => ⟨S850000x40, .f32⟩
  | 4 => ⟨S_, .f32⟩
  | 5 => ⟨S50000x40, .f32⟩
  | 6 => ⟨S850000x1, .i32⟩
  | 7 => ⟨S50000x40, .f32⟩
  | 8 => ⟨S1x40, .f32⟩
  | 9 => ⟨S50000x40, .f32⟩
  | 10 => ⟨S50000x40, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_9 : Ref sig .tc := ⟨.hbm, 75, rfl⟩
abbrev main_v50 : Ref sig .tc := ⟨.hbm, 76, rfl⟩
abbrev main_v51 : Ref sig .tc := ⟨.hbm, 77, rfl⟩
abbrev main_c_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_12 : Ref sig .tc := ⟨.hbm, 98, rfl⟩
abbrev main_v68 : Ref sig .tc := ⟨.hbm, 99, rfl⟩
abbrev main_v69 : Ref sig .tc := ⟨.hbm, 100, rfl⟩
abbrev main_c_13 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_call3_cst : Ref sig .tc := ⟨.hbm, 116, rfl⟩
abbrev main_call3_v0 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_c_15 : Ref sig .tc := ⟨.hbm, 121, rfl⟩
abbrev main_v86 : Ref sig .tc := ⟨.hbm, 122, rfl⟩
abbrev main_v87 : Ref sig .tc := ⟨.hbm, 123, rfl⟩
abbrev main_c_16 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_17 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x40_S50000x40_1_0_0_1_n_n_wf : DotDims.WF S50000x256 S256x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.WholeRun.lean ====
/-
  The idealized kernel's run with EVERY buffer named.

  @main is fourteen segments: stretches of host operations around four matrix-product regions. The buffer contents
  at the segment boundaries form a fold from the launch memory (`Gen.W0` … `Gen.W14`): a stretch of host operations
  maps the contents it finds to `StableHlo.after` of them, and a region replaces each of its arrays by what its
  write-backs leave. `run_all` says that every weakly fair execution terminates, nothing faulting, with every
  unscoped buffer of every core holding the last contents of that fold, `Gen.W14`. The result buffer and the ten
  argument buffers are unscoped, so the result's value is `Gen.W14` read at it (`run_result`), and the arguments end
  as launched.
-/
import proofs.«174991_j10153302687991_1_alg».proof.Proof.Gen.KernelIdeal.Frame

set_option maxRecDepth 16384

noncomputable section

namespace Cert.KernelIdeal.WholeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at the
    fold's final contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

/-- The run with the result named: the result buffer ends at the fold's final contents read at it, and every argument
    array ends as launched. -/
theorem run_result : θ_run defs (onTc (τ := τ) (main (F := F))) ⟨m, fun _ => 0, ρ⟩ (fun r => ∀ c : Dev nD,
      r.2.mem ((c.tc : Thread nD τ).loc main_v100) = W14 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨h c _ (mem_uc main_v100 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c)⟩)
    (run_all m ρ)

end Cert.KernelIdeal.WholeRun

end
-- ==== Proof.LibStretch.lean ====
/-
  Two general facts about a straight line of host operations, for any program.

  * `after_append`: the buffer contents after two stretches of operations run one after the other are the second
    stretch's fold over the first's — so a long line is read back stretch by stretch, each stretch from whatever
    contents it finds.
  * `ofBuf_toBuf`: a value carried to the type of the buffer a typed reference names and back again is the value;
    the operations of an inlined call write and read their buffers through exactly these two transports, so every
    value that passes from one such operation to the next comes through unchanged. (A value that enters such an
    operation from a plain buffer, or leaves the last one, passes ONE transport: it is removed by
    `eq_of_heq (cast_heq _ _)`, the two types being the same once the reference's type is computed.)
-/
import Idealize.ShloMosaic.Lib.StableHlo.Run

noncomputable section

namespace Cert.LibStretch

open Idealize.ShloMosaic Idealize.ShloMosaic.StableHlo

variable {τ : Topo} {sig : RefSig} {Val : EltTy → Type}

/-- Two stretches one after the other. -/
theorem after_append (l1 l2 : List (HloOp τ sig Val)) (V : Valuation τ sig Val) :
    after (l1 ++ l2) V = after l2 (after l1 V) := by
  induction l1 generalizing V with
  | nil => rfl
  | cons a l ih => exact ih _

/-- Contents carried to a buffer's own type and back are the contents. -/
theorem ofBuf_toBuf {T : BufTy} (x : TRef sig T) (v : T.Contents Val) : x.ofBuf (x.toBuf v) = v := by
  obtain ⟨r, h, h1, h2⟩ := x
  subst h
  rfl

end Cert.LibStretch

end
-- ==== Proof.RefLine.lean ====
/-
  The reference program's @main as a line of host operations, cut where it multiplies matrices.

  The reference is a straight line of 129 host operations (the two small functions it calls — the selection written by
  `where` and the clamp at zero — stand in their calls' places). It is cut here into nine stretches: the operations before
  the first matrix product (the edge lists with a self-loop per node appended, the node degrees by an accumulating
  scatter, their inverse square roots where the degree is positive and zero elsewhere, and the per-edge weight), then
  alternately one matrix product and the stretch up to the next one (gather the rows of the product at the edges' start
  nodes, scale by the edge weight, scatter-add at the end nodes, add the bias row, clamp at zero), the last stretch
  without the clamp. `run_line`: every weakly fair execution of the reference terminates with every buffer at the fold of the
  whole line over the launch contents, and `after_split` reads that fold stretch by stretch.
-/
import proofs.«174991_j10153302687991_1_alg».proof.Proof.Gen.ReferenceIdeal
import proofs.«174991_j10153302687991_1_alg».proof.Proof.LibStretch
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The operations before the first product: edge lists, degrees, edge weights. -/
abbrev opsA : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2 : StableHlo.TRef sig ⟨S_, .f32⟩) main_call0.v0 id,
    StableHlo.TRef.unary main_call0.v0 main_call0.v1 (broadcastInDim S50000 ![] bcast_S_S50000),
    StableHlo.TRef.ternary (.of main_v12 : StableHlo.TRef sig ⟨S50000, .i1⟩) (.of main_v13 : StableHlo.TRef sig ⟨S50000, .f32⟩) main_call0.v1 main_call0.v2 select,
    StableHlo.nullary main_c (constantI S_ 32 0#32),
    StableHlo.unary main_c main_v15 (broadcastInDim S850000 ![] bcast_S_S850000 : (⟨S_, .i32⟩ : BufTy).Contents (Elt F) → (⟨S850000, .i32⟩ : BufTy).Contents (Elt F)),
    StableHlo.binary main_v3 main_v15 main_v16 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v17 (broadcastInDim S850000 ![] bcast_S_S850000 : (⟨S_, .i32⟩ : BufTy).Contents (Elt F) → (⟨S850000, .i32⟩ : BufTy).Contents (Elt F)),
    StableHlo.binary main_v3 main_v17 main_v18 (addi : (⟨S850000, .i32⟩ : BufTy).Contents (Elt F) → (⟨S850000, .i32⟩ : BufTy).Contents (Elt F) → (⟨S850000, .i32⟩ : BufTy).Contents (Elt F)),
    StableHlo.ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v19 main_v20 (broadcastInDim S850000x1 ![0] bcast_S850000_S850000x1_0 : (⟨S850000, .i32⟩ : BufTy).Contents (Elt F) → (⟨S850000x1, .i32⟩ : BufTy).Contents (Elt F)),
    StableHlo.binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v22 (broadcastInDim S850000 ![] bcast_S_S850000 : (⟨S_, .i32⟩ : BufTy).Contents (Elt F) → (⟨S850000, .i32⟩ : BufTy).Contents (Elt F)),
    StableHlo.binary main_v6 main_v22 main_v23 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (addi : (⟨S850000, .i32⟩ : BufTy).Contents (Elt F) → (⟨S850000, .i32⟩ : BufTy).Contents (Elt F) → (⟨S850000, .i32⟩ : BufTy).Contents (Elt F)),
    StableHlo.ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v26 main_v27 (broadcastInDim S850000x1 ![0] bcast_S850000_S850000x1_0 : (⟨S850000, .i32⟩ : BufTy).Contents (Elt F) → (⟨S850000x1, .i32⟩ : BufTy).Contents (Elt F)),
    StableHlo.binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v21 main_v28 main_v29 (mulf : (⟨S850000, .f32⟩ : BufTy).Contents (Elt F) → (⟨S850000, .f32⟩ : BufTy).Contents (Elt F) → (⟨S850000, .f32⟩ : BufTy).Contents (Elt F)) ]

/-- The first product. -/
abbrev dot0 : List (HloOp τ sig (Elt F)) :=
  [ StableHlo.binary main_arg0 main_arg2 main_v30 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

/-- From the first product to the second: aggregate over the edges, add the bias, clamp at zero. -/
abbrev opsB : List (HloOp τ sig (Elt F)) :=
  [ StableHlo.unary main_v29 main_v31 (broadcastInDim S850000x1 ![0] bcast_S850000_S850000x1_0 : (⟨S850000, .f32⟩ : BufTy).Contents (Elt F) → (⟨S850000x1, .f32⟩ : BufTy).Contents (Elt F)),
    StableHlo.nullary main_c_6 (constantI S_ 32 0#32),
    StableHlo.unary main_c_6 main_v32 (broadcastInDim S850000 ![] bcast_S_S850000 : (⟨S_, .i32⟩ : BufTy).Contents (Elt F) → (⟨S850000, .i32⟩ : BufTy).Contents (Elt F)),
    StableHlo.binary main_v3 main_v32 main_v33 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v34 (broadcastInDim S850000 ![] bcast_S_S850000 : (⟨S_, .i32⟩ : BufTy).Contents (Elt F) → (⟨S850000, .i32⟩ : BufTy).Contents (Elt F)),
    StableHlo.binary main_v3 main_v34 main_v35 (addi : (⟨S850000, .i32⟩ : BufTy).Contents (Elt F) → (⟨S850000, .i32⟩ : BufTy).Contents (Elt F) → (⟨S850000, .i32⟩ : BufTy).Contents (Elt F)),
    StableHlo.ternary main_v33 main_v35 main_v3 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v36 main_v37 (broadcastInDim S850000x1 ![0] bcast_S850000_S850000x1_0 : (⟨S850000, .i32⟩ : BufTy).Contents (Elt F) → (⟨S850000x1, .i32⟩ : BufTy).Contents (Elt F)),
    StableHlo.binary main_v30 main_v37 main_v38 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v31 main_v39 (broadcastInDim S850000x256 ![0, 1] bcast_S850000x1_S850000x256_0_1 : (⟨S850000x1, .f32⟩ : BufTy).Contents (Elt F) → (⟨S850000x256, .f32⟩ : BufTy).Contents (Elt F)),
    StableHlo.binary main_v39 main_v38 main_v40 (mulf : (⟨S850000x256, .f32⟩ : BufTy).Contents (Elt F) → (⟨S850000x256, .f32⟩ : BufTy).Contents (Elt F) → (⟨S850000x256, .f32⟩ : BufTy).Contents (Elt F)),
    StableHlo.nullary main_cst_8 (constant S_ .f32 0x00000000#32),
    StableHlo.unary main_cst_8 main_v41 (broadcastInDim S50000x256 ![] bcast_S_S50000x256 : (⟨S_, .f32⟩ : BufTy).Contents (Elt F) → (⟨S50000x256, .f32⟩ : BufTy).Contents (Elt F)),
    StableHlo.unary main_v6 main_v42 (broadcastInDim S850000x1 ![0] bcast_S850000_S850000x1_0 : (⟨S850000, .i32⟩ : BufTy).Contents (Elt F) → (⟨S850000x1, .i32⟩ : BufTy).Contents (Elt F)),
    StableHlo.ternary main_v41 main_v42 main_v40 main_v43 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg3 main_v44 (broadcastInDim S1x256 ![1] bcast_S256_S1x256_1 : (⟨S256, .f32⟩ : BufTy).Contents (Elt F) → (⟨S1x256, .f32⟩ : BufTy).Contents (Elt F)),
    StableHlo.unary main_v44 main_v45 (broadcastInDim S50000x256 ![0, 1] bcast_S1x256_S50000x256_0_1 : (⟨S1x256, .f32⟩ : BufTy).Contents (Elt F) → (⟨S50000x256, .f32⟩ : BufTy).Contents (Elt F)),
    StableHlo.binary main_v43 main_v45 main_v46 (addf : (⟨S50000x256, .f32⟩ : BufTy).Contents (Elt F) → (⟨S50000x256, .f32⟩ : BufTy).Contents (Elt F) → (⟨S50000x256, .f32⟩ : BufTy).Contents (Elt F)),
    StableHlo.TRef.nullary main_call1.cst (constant S_ .f32 0x00000000#32),
    StableHlo.TRef.unary main_call1.cst main_call1.v0 (broadcastInDim S50000x256 ![] bcast_S_S50000x256),
    StableHlo.TRef.binary (.of main_v46 : StableHlo.TRef sig ⟨S50000x256, .f32⟩) main_call1.v0 main_call1.v1 maximumf ]

/-- The second product. -/
abbrev dot1 : List (HloOp τ sig (Elt F)) :=
  [ StableHlo.binary main_v47 main_arg4 main_v48 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

/-- From the second product to the third. -/
abbrev opsC : List (HloOp τ sig (Elt F)) :=
  [ StableHlo.unary main_v29 main_v49 (broadcastInDim S850000x1 ![0] bcast_S850000_S850000x1_0 : (⟨S850000, .f32⟩ : BufTy).Contents (Elt F) → (⟨S850000x1, .f32⟩ : BufTy).Contents (Elt F)),
    StableHlo.nullary main_c_9 (constantI S_ 32 0#32),
    StableHlo.unary main_c_9 main_v50 (broadcastInDim S850000 ![] bcast_S_S850000 : (⟨S_, .i32⟩ : BufTy).Contents (Elt F) → (⟨S850000, .i32⟩ : BufTy).Contents (Elt F)),
    StableHlo.binary main_v3 main_v50 main_v51 (cmpi .slt : (⟨S850000, .i32⟩ : BufTy).Contents (Elt F) → (⟨S850000, .i32⟩ : BufTy).Contents (Elt F) → (⟨S850000, .i1⟩ : BufTy).Contents (Elt F)),
    StableHlo.nullary main_c_10 (constantI S_ 32 50000#32),
    StableHlo.unary main_c_10 main_v52 (broadcastInDim S850000 ![] bcast_S_S850000 : (⟨S_, .i32⟩ : BufTy).Contents (Elt F) → (⟨S850000, .i32⟩ : BufTy).Contents (Elt F)),
    StableHlo.binary main_v3 main_v52 main_v53 (addi : (⟨S850000, .i32⟩ : BufTy).Contents (Elt F) → (⟨S850000, .i32⟩ : BufTy).Contents (Elt F) → (⟨S850000, .i32⟩ : BufTy).Contents (Elt F)),
    StableHlo.ternary main_v51 main_v53 main_v3 main_v54 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v54 main_v55 (broadcastInDim S850000x1 ![0] bcast_S850000_S850000x1_0 : (⟨S850000, .i32⟩ : BufTy).Contents (Elt F) → (⟨S850000x1, .i32⟩ : BufTy).Contents (Elt F)),
    StableHlo.binary main_v48 main_v55 main_v56 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v49 main_v57 (broadcastInDim S850000x256 ![0, 1] bcast_S850000x1_S850000x256_0_1 : (⟨S850000x1, .f32⟩ : BufTy).Contents (Elt F) → (⟨S850000x256, .f32⟩ : BufTy).Contents (Elt F)),
    StableHlo.binary main_v57 main_v56 main_v58 (mulf : (⟨S850000x256, .f32⟩ : BufTy).Contents (Elt F) → (⟨S850000x256, .f32⟩ : BufTy).Contents (Elt F) → (⟨S850000x256, .f32⟩ : BufTy).Contents (Elt F)),
    StableHlo.nullary main_cst_11 (constant S_ .f32 0x00000000#32),
    StableHlo.unary main_cst_11 main_v59 (broadcastInDim S50000x256 ![] bcast_S_S50000x256 : (⟨S_, .f32⟩ : BufTy).Contents (Elt F) → (⟨S50000x256, .f32⟩ : BufTy).Contents (Elt F)),
    StableHlo.unary main_v6 main_v60 (broadcastInDim S850000x1 ![0] bcast_S850000_S850000x1_0 : (⟨S850000, .i32⟩ : BufTy).Contents (Elt F) → (⟨S850000x1, .i32⟩ : BufTy).Contents (Elt F)),
    StableHlo.ternary main_v59 main_v60 main_v58 main_v61 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg5 main_v62 (broadcastInDim S1x256 ![1] bcast_S256_S1x256_1 : (⟨S256, .f32⟩ : BufTy).Contents (Elt F) → (⟨S1x256, .f32⟩ : BufTy).Contents (Elt F)),
    StableHlo.unary main_v62 main_v63 (broadcastInDim S50000x256 ![0, 1] bcast_S1x256_S50000x256_0_1 : (⟨S1x256, .f32⟩ : BufTy).Contents (Elt F) → (⟨S50000x256, .f32⟩ : BufTy).Contents (Elt F)),
    StableHlo.binary main_v61 main_v63 main_v64 (addf : (⟨S50000x256, .f32⟩ : BufTy).Contents (Elt F) → (⟨S50000x256, .f32⟩ : BufTy).Contents (Elt F) → (⟨S50000x256, .f32⟩ : BufTy).Contents (Elt F)),
    StableHlo.TRef.nullary main_call2.cst (constant S_ .f32 0x00000000#32),
    StableHlo.TRef.unary main_call2.cst main_call2.v0 (broadcastInDim S50000x256 ![] bcast_S_S50000x256),
    StableHlo.TRef.binary (.of main_v64 : StableHlo.TRef sig ⟨S50000x256, .f32⟩) main_call2.v0 main_call2.v1 maximumf ]

/-- The third product. -/
abbrev dot2 : List (HloOp τ sig (Elt F)) :=
  [ StableHlo.binary main_v65 main_arg6 main_v66 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

/-- From the third product to the fourth. -/
abbrev opsD : List (HloOp τ sig (Elt F)) :=
  [ StableHlo.unary main_v29 main_v67 (broadcastInDim S850000x1 ![0] bcast_S850000_S850000x1_0 : (⟨S850000, .f32⟩ : BufTy).Contents (Elt F) → (⟨S850000x1, .f32⟩ : BufTy).Contents (Elt F)),
    StableHlo.nullary main_c_12 (constantI S_ 32 0#32),
    StableHlo.unary main_c_12 main_v68 (broadcastInDim S850000 ![] bcast_S_S850000 : (⟨S_, .i32⟩ : BufTy).Contents (Elt F) → (⟨S850000, .i32⟩ : BufTy).Contents (Elt F)),
    StableHlo.binary main_v3 main_v68 main_v69 (cmpi .slt : (⟨S850000, .i32⟩ : BufTy).Contents (Elt F) → (⟨S850000, .i32⟩ : BufTy).Contents (Elt F) → (⟨S850000, .i1⟩ : BufTy).Contents (Elt F)),
    StableHlo.nullary main_c_13 (constantI S_ 32 50000#32),
    StableHlo.unary main_c_13 main_v70 (broadcastInDim S850000 ![] bcast_S_S850000 : (⟨S_, .i32⟩ : BufTy).Contents (Elt F) → (⟨S850000, .i32⟩ : BufTy).Contents (Elt F)),
    StableHlo.binary main_v3 main_v70 main_v71 (addi : (⟨S850000, .i32⟩ : BufTy).Contents (Elt F) → (⟨S850000, .i32⟩ : BufTy).Contents (Elt F) → (⟨S850000, .i32⟩ : BufTy).Contents (Elt F)),
    StableHlo.ternary main_v69 main_v71 main_v3 main_v72 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v72 main_v73 (broadcastInDim S850000x1 ![0] bcast_S850000_S850000x1_0 : (⟨S850000, .i32⟩ : BufTy).Contents (Elt F) → (⟨S850000x1, .i32⟩ : BufTy).Contents (Elt F)),
    StableHlo.binary main_v66 main_v73 main_v74 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v67 main_v75 (broadcastInDim S850000x256 ![0, 1] bcast_S850000x1_S850000x256_0_1 : (⟨S850000x1, .f32⟩ : BufTy).Contents (Elt F) → (⟨S850000x256, .f32⟩ : BufTy).Contents (Elt F)),
    StableHlo.binary main_v75 main_v74 main_v76 (mulf : (⟨S850000x256, .f32⟩ : BufTy).Contents (Elt F) → (⟨S850000x256, .f32⟩ : BufTy).Contents (Elt F) → (⟨S850000x256, .f32⟩ : BufTy).Contents (Elt F)),
    StableHlo.nullary main_cst_14 (constant S_ .f32 0x00000000#32),
    StableHlo.unary main_cst_14 main_v77 (broadcastInDim S50000x256 ![] bcast_S_S50000x256 : (⟨S_, .f32⟩ : BufTy).Contents (Elt F) → (⟨S50000x256, .f32⟩ : BufTy).Contents (Elt F)),
    StableHlo.unary main_v6 main_v78 (broadcastInDim S850000x1 ![0] bcast_S850000_S850000x1_0 : (⟨S850000, .i32⟩ : BufTy).Contents (Elt F) → (⟨S850000x1, .i32⟩ : BufTy).Contents (Elt F)),
    StableHlo.ternary main_v77 main_v78 main_v76 main_v79 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg7 main_v80 (broadcastInDim S1x256 ![1] bcast_S256_S1x256_1 : (⟨S256, .f32⟩ : BufTy).Contents (Elt F) → (⟨S1x256, .f32⟩ : BufTy).Contents (Elt F)),
    StableHlo.unary main_v80 main_v81 (broadcastInDim S50000x256 ![0, 1] bcast_S1x256_S50000x256_0_1 : (⟨S1x256, .f32⟩ : BufTy).Contents (Elt F) → (⟨S50000x256, .f32⟩ : BufTy).Contents (Elt F)),
    StableHlo.binary main_v79 main_v81 main_v82 (addf : (⟨S50000x256, .f32⟩ : BufTy).Contents (Elt F) → (⟨S50000x256, .f32⟩ : BufTy).Contents (Elt F) → (⟨S50000x256, .f32⟩ : BufTy).Contents (Elt F)),
    StableHlo.TRef.nullary main_call3.cst (constant S_ .f32 0x00000000#32),
    StableHlo.TRef.unary main_call3.cst main_call3.v0 (broadcastInDim S50000x256 ![] bcast_S_S50000x256),
    StableHlo.TRef.binary (.of main_v82 : StableHlo.TRef sig ⟨S50000x256, .f32⟩) main_call3.v0 main_call3.v1 maximumf ]

/-- The fourth product. -/
abbrev dot3 : List (HloOp τ sig (Elt F)) :=
  [ StableHlo.binary main_v83 main_arg8 main_v84 ((fun l r => Host.dotGeneral dot_S50000x256_S256x40_S50000x40_1_0_0_1_n_n none l r) : (⟨S50000x256, .f32⟩ : BufTy).Contents (Elt F) → (⟨S256x40, .f32⟩ : BufTy).Contents (Elt F) → (⟨S50000x40, .f32⟩ : BufTy).Contents (Elt F)) ]

/-- After the fourth product: aggregate over the edges and add the bias. -/
abbrev opsE : List (HloOp τ sig (Elt F)) :=
  [ StableHlo.unary main_v29 main_v85 (broadcastInDim S850000x1 ![0] bcast_S850000_S850000x1_0 : (⟨S850000, .f32⟩ : BufTy).Contents (Elt F) → (⟨S850000x1, .f32⟩ : BufTy).Contents (Elt F)),
    StableHlo.nullary main_c_15 (constantI S_ 32 0#32),
    StableHlo.unary main_c_15 main_v86 (broadcastInDim S850000 ![] bcast_S_S850000 : (⟨S_, .i32⟩ : BufTy).Contents (Elt F) → (⟨S850000, .i32⟩ : BufTy).Contents (Elt F)),
    StableHlo.binary main_v3 main_v86 main_v87 (cmpi .slt : (⟨S850000, .i32⟩ : BufTy).Contents (Elt F) → (⟨S850000, .i32⟩ : BufTy).Contents (Elt F) → (⟨S850000, .i1⟩ : BufTy).Contents (Elt F)),
    StableHlo.nullary main_c_16 (constantI S_ 32 50000#32),
    StableHlo.unary main_c_16 main_v88 (broadcastInDim S850000 ![] bcast_S_S850000 : (⟨S_, .i32⟩ : BufTy).Contents (Elt F) → (⟨S850000, .i32⟩ : BufTy).Contents (Elt F)),
    StableHlo.binary main_v3 main_v88 main_v89 (addi : (⟨S850000, .i32⟩ : BufTy).Contents (Elt F) → (⟨S850000, .i32⟩ : BufTy).Contents (Elt F) → (⟨S850000, .i32⟩ : BufTy).Contents (Elt F)),
    StableHlo.ternary main_v87 main_v89 main_v3 main_v90 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v90 main_v91 (broadcastInDim S850000x1 ![0] bcast_S850000_S850000x1_0 : (⟨S850000, .i32⟩ : BufTy).Contents (Elt F) → (⟨S850000x1, .i32⟩ : BufTy).Contents (Elt F)),
    StableHlo.binary main_v84 main_v91 main_v92 ((fun x i => Host.gather gather_S50000x40_S850000x1_S850000x40_1_0_n_n_0_1_140 x i) : (⟨S50000x40, .f32⟩ : BufTy).Contents (Elt F) → (⟨S850000x1, .i32⟩ : BufTy).Contents (Elt F) → (⟨S850000x40, .f32⟩ : BufTy).Contents (Elt F)),
    StableHlo.unary main_v85 main_v93 (broadcastInDim S850000x40 ![0, 1] bcast_S850000x1_S850000x40_0_1 : (⟨S850000x1, .f32⟩ : BufTy).Contents (Elt F) → (⟨S850000x40, .f32⟩ : BufTy).Contents (Elt F)),
    StableHlo.binary main_v93 main_v92 main_v94 (mulf : (⟨S850000x40, .f32⟩ : BufTy).Contents (Elt F) → (⟨S850000x40, .f32⟩ : BufTy).Contents (Elt F) → (⟨S850000x40, .f32⟩ : BufTy).Contents (Elt F)),
    StableHlo.nullary main_cst_17 (constant S_ .f32 0x00000000#32),
    StableHlo.unary main_cst_17 main_v95 (broadcastInDim S50000x40 ![] bcast_S_S50000x40 : (⟨S_, .f32⟩ : BufTy).Contents (Elt F) → (⟨S50000x40, .f32⟩ : BufTy).Contents (Elt F)),
    StableHlo.unary main_v6 main_v96 (broadcastInDim S850000x1 ![0] bcast_S850000_S850000x1_0 : (⟨S850000, .i32⟩ : BufTy).Contents (Elt F) → (⟨S850000x1, .i32⟩ : BufTy).Contents (Elt F)),
    StableHlo.ternary main_v95 main_v96 main_v94 main_v97 ((fun x i u => Host.scatterAdd scatter_S50000x40_S850000x1_S850000x40_1_0_0_1 x i u) : (⟨S50000x40, .f32⟩ : BufTy).Contents (Elt F) → (⟨S850000x1, .i32⟩ : BufTy).Contents (Elt F) → (⟨S850000x40, .f32⟩ : BufTy).Contents (Elt F) → (⟨S50000x40, .f32⟩ : BufTy).Contents (Elt F)),
    StableHlo.unary main_arg9 main_v98 (broadcastInDim S1x40 ![1] bcast_S40_S1x40_1 : (⟨S40, .f32⟩ : BufTy).Contents (Elt F) → (⟨S1x40, .f32⟩ : BufTy).Contents (Elt F)),
    StableHlo.unary main_v98 main_v99 (broadcastInDim S50000x40 ![0, 1] bcast_S1x40_S50000x40_0_1 : (⟨S1x40, .f32⟩ : BufTy).Contents (Elt F) → (⟨S50000x40, .f32⟩ : BufTy).Contents (Elt F)),
    StableHlo.binary main_v97 main_v99 main_v100 (addf : (⟨S50000x40, .f32⟩ : BufTy).Contents (Elt F) → (⟨S50000x40, .f32⟩ : BufTy).Contents (Elt F) → (⟨S50000x40, .f32⟩ : BufTy).Contents (Elt F)) ]

/-- The whole line, in order. -/
abbrev ops : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2 : StableHlo.TRef sig ⟨S_, .f32⟩) main_call0.v0 id,
    StableHlo.TRef.unary main_call0.v0 main_call0.v1 (broadcastInDim S50000 ![] bcast_S_S50000),
    StableHlo.TRef.ternary (.of main_v12 : StableHlo.TRef sig ⟨S50000, .i1⟩) (.of main_v13 : StableHlo.TRef sig ⟨S50000, .f32⟩) main_call0.v1 main_call0.v2 select,
    StableHlo.nullary main_c (constantI S_ 32 0#32),
    StableHlo.unary main_c main_v15 (broadcastInDim S850000 ![] bcast_S_S850000 : (⟨S_, .i32⟩ : BufTy).Contents (Elt F) → (⟨S850000, .i32⟩ : BufTy).Contents (Elt F)),
    StableHlo.binary main_v3 main_v15 main_v16 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v17 (broadcastInDim S850000 ![] bcast_S_S850000 : (⟨S_, .i32⟩ : BufTy).Contents (Elt F) → (⟨S850000, .i32⟩ : BufTy).Contents (Elt F)),
    StableHlo.binary main_v3 main_v17 main_v18 (addi : (⟨S850000, .i32⟩ : BufTy).Contents (Elt F) → (⟨S850000, .i32⟩ : BufTy).Contents (Elt F) → (⟨S850000, .i32⟩ : BufTy).Contents (Elt F)),
    StableHlo.ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v19 main_v20 (broadcastInDim S850000x1 ![0] bcast_S850000_S850000x1_0 : (⟨S850000, .i32⟩ : BufTy).Contents (Elt F) → (⟨S850000x1, .i32⟩ : BufTy).Contents (Elt F)),
    StableHlo.binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v22 (broadcastInDim S850000 ![] bcast_S_S850000 : (⟨S_, .i32⟩ : BufTy).Contents (Elt F) → (⟨S850000, .i32⟩ : BufTy).Contents (Elt F)),
    StableHlo.binary main_v6 main_v22 main_v23 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (addi : (⟨S850000, .i32⟩ : BufTy).Contents (Elt F) → (⟨S850000, .i32⟩ : BufTy).Contents (Elt F) → (⟨S850000, .i32⟩ : BufTy).Contents (Elt F)),
    StableHlo.ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v26 main_v27 (broadcastInDim S850000x1 ![0] bcast_S850000_S850000x1_0 : (⟨S850000, .i32⟩ : BufTy).Contents (Elt F) → (⟨S850000x1, .i32⟩ : BufTy).Contents (Elt F)),
    StableHlo.binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v21 main_v28 main_v29 (mulf : (⟨S850000, .f32⟩ : BufTy).Contents (Elt F) → (⟨S850000, .f32⟩ : BufTy).Contents (Elt F) → (⟨S850000, .f32⟩ : BufTy).Contents (Elt F)),
    StableHlo.binary main_arg0 main_arg2 main_v30 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_v29 main_v31 (broadcastInDim S850000x1 ![0] bcast_S850000_S850000x1_0 : (⟨S850000, .f32⟩ : BufTy).Contents (Elt F) → (⟨S850000x1, .f32⟩ : BufTy).Contents (Elt F)),
    StableHlo.nullary main_c_6 (constantI S_ 32 0#32),
    StableHlo.unary main_c_6 main_v32 (broadcastInDim S850000 ![] bcast_S_S850000 : (⟨S_, .i32⟩ : BufTy).Contents (Elt F) → (⟨S850000, .i32⟩ : BufTy).Contents (Elt F)),
    StableHlo.binary main_v3 main_v32 main_v33 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v34 (broadcastInDim S850000 ![] bcast_S_S850000 : (⟨S_, .i32⟩ : BufTy).Contents (Elt F) → (⟨S850000, .i32⟩ : BufTy).Contents (Elt F)),
    StableHlo.binary main_v3 main_v34 main_v35 (addi : (⟨S850000, .i32⟩ : BufTy).Contents (Elt F) → (⟨S850000, .i32⟩ : BufTy).Contents (Elt F) → (⟨S850000, .i32⟩ : BufTy).Contents (Elt F)),
    StableHlo.ternary main_v33 main_v35 main_v3 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v36 main_v37 (broadcastInDim S850000x1 ![0] bcast_S850000_S850000x1_0 : (⟨S850000, .i32⟩ : BufTy).Contents (Elt F) → (⟨S850000x1, .i32⟩ : BufTy).Contents (Elt F)),
    StableHlo.binary main_v30 main_v37 main_v38 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v31 main_v39 (broadcastInDim S850000x256 ![0, 1] bcast_S850000x1_S850000x256_0_1 : (⟨S850000x1, .f32⟩ : BufTy).Contents (Elt F) → (⟨S850000x256, .f32⟩ : BufTy).Contents (Elt F)),
    StableHlo.binary main_v39 main_v38 main_v40 (mulf : (⟨S850000x256, .f32⟩ : BufTy).Contents (Elt F) → (⟨S850000x256, .f32⟩ : BufTy).Contents (Elt F) → (⟨S850000x256, .f32⟩ : BufTy).Contents (Elt F)),
    StableHlo.nullary main_cst_8 (constant S_ .f32 0x00000000#32),
    StableHlo.unary main_cst_8 main_v41 (broadcastInDim S50000x256 ![] bcast_S_S50000x256 : (⟨S_, .f32⟩ : BufTy).Contents (Elt F) → (⟨S50000x256, .f32⟩ : BufTy).Contents (Elt F)),
    StableHlo.unary main_v6 main_v42 (broadcastInDim S850000x1 ![0] bcast_S850000_S850000x1_0 : (⟨S850000, .i32⟩ : BufTy).Contents (Elt F) → (⟨S850000x1, .i32⟩ : BufTy).Contents (Elt F)),
    StableHlo.ternary main_v41 main_v42 main_v40 main_v43 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg3 main_v44 (broadcastInDim S1x256 ![1] bcast_S256_S1x256_1 : (⟨S256, .f32⟩ : BufTy).Contents (Elt F) → (⟨S1x256, .f32⟩ : BufTy).Contents (Elt F)),
    StableHlo.unary main_v44 main_v45 (broadcastInDim S50000x256 ![0, 1] bcast_S1x256_S50000x256_0_1 : (⟨S1x256, .f32⟩ : BufTy).Contents (Elt F) → (⟨S50000x256, .f32⟩ : BufTy).Contents (Elt F)),
    StableHlo.binary main_v43 main_v45 main_v46 (addf : (⟨S50000x256, .f32⟩ : BufTy).Contents (Elt F) → (⟨S50000x256, .f32⟩ : BufTy).Contents (Elt F) → (⟨S50000x256, .f32⟩ : BufTy).Contents (Elt F)),
    StableHlo.TRef.nullary main_call1.cst (constant S_ .f32 0x00000000#32),
    StableHlo.TRef.unary main_call1.cst main_call1.v0 (broadcastInDim S50000x256 ![] bcast_S_S50000x256),
    StableHlo.TRef.binary (.of main_v46 : StableHlo.TRef sig ⟨S50000x256, .f32⟩) main_call1.v0 main_call1.v1 maximumf,
    StableHlo.binary main_v47 main_arg4 main_v48 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_v29 main_v49 (broadcastInDim S850000x1 ![0] bcast_S850000_S850000x1_0 : (⟨S850000, .f32⟩ : BufTy).Contents (Elt F) → (⟨S850000x1, .f32⟩ : BufTy).Contents (Elt F)),
    StableHlo.nullary main_c_9 (constantI S_ 32 0#32),
    StableHlo.unary main_c_9 main_v50 (broadcastInDim S850000 ![] bcast_S_S850000 : (⟨S_, .i32⟩ : BufTy).Contents (Elt F) → (⟨S850000, .i32⟩ : BufTy).Contents (Elt F)),
    StableHlo.binary main_v3 main_v50 main_v51 (cmpi .slt : (⟨S850000, .i32⟩ : BufTy).Contents (Elt F) → (⟨S850000, .i32⟩ : BufTy).Contents (Elt F) → (⟨S850000, .i1⟩ : BufTy).Contents (Elt F)),
    StableHlo.nullary main_c_10 (constantI S_ 32 50000#32),
    StableHlo.unary main_c_10 main_v52 (broadcastInDim S850000 ![] bcast_S_S850000 : (⟨S_, .i32⟩ : BufTy).Contents (Elt F) → (⟨S850000, .i32⟩ : BufTy).Contents (Elt F)),
    StableHlo.binary main_v3 main_v52 main_v53 (addi : (⟨S850000, .i32⟩ : BufTy).Contents (Elt F) → (⟨S850000, .i32⟩ : BufTy).Contents (Elt F) → (⟨S850000, .i32⟩ : BufTy).Contents (Elt F)),
    StableHlo.ternary main_v51 main_v53 main_v3 main_v54 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v54 main_v55 (broadcastInDim S850000x1 ![0] bcast_S850000_S850000x1_0 : (⟨S850000, .i32⟩ : BufTy).Contents (Elt F) → (⟨S850000x1, .i32⟩ : BufTy).Contents (Elt F)),
    StableHlo.binary main_v48 main_v55 main_v56 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v49 main_v57 (broadcastInDim S850000x256 ![0, 1] bcast_S850000x1_S850000x256_0_1 : (⟨S850000x1, .f32⟩ : BufTy).Contents (Elt F) → (⟨S850000x256, .f32⟩ : BufTy).Contents (Elt F)),
    StableHlo.binary main_v57 main_v56 main_v58 (mulf : (⟨S850000x256, .f32⟩ : BufTy).Contents (Elt F) → (⟨S850000x256, .f32⟩ : BufTy).Contents (Elt F) → (⟨S850000x256, .f32⟩ : BufTy).Contents (Elt F)),
    StableHlo.nullary main_cst_11 (constant S_ .f32 0x00000000#32),
    StableHlo.unary main_cst_11 main_v59 (broadcastInDim S50000x256 ![] bcast_S_S50000x256 : (⟨S_, .f32⟩ : BufTy).Contents (Elt F) → (⟨S50000x256, .f32⟩ : BufTy).Contents (Elt F)),
    StableHlo.unary main_v6 main_v60 (broadcastInDim S850000x1 ![0] bcast_S850000_S850000x1_0 : (⟨S850000, .i32⟩ : BufTy).Contents (Elt F) → (⟨S850000x1, .i32⟩ : BufTy).Contents (Elt F)),
    StableHlo.ternary main_v59 main_v60 main_v58 main_v61 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg5 main_v62 (broadcastInDim S1x256 ![1] bcast_S256_S1x256_1 : (⟨S256, .f32⟩ : BufTy).Contents (Elt F) → (⟨S1x256, .f32⟩ : BufTy).Contents (Elt F)),
    StableHlo.unary main_v62 main_v63 (broadcastInDim S50000x256 ![0, 1] bcast_S1x256_S50000x256_0_1 : (⟨S1x256, .f32⟩ : BufTy).Contents (Elt F) → (⟨S50000x256, .f32⟩ : BufTy).Contents (Elt F)),
    StableHlo.binary main_v61 main_v63 main_v64 (addf : (⟨S50000x256, .f32⟩ : BufTy).Contents (Elt F) → (⟨S50000x256, .f32⟩ : BufTy).Contents (Elt F) → (⟨S50000x256, .f32⟩ : BufTy).Contents (Elt F)),
    StableHlo.TRef.nullary main_call2.cst (constant S_ .f32 0x00000000#32),
    StableHlo.TRef.unary main_call2.cst main_call2.v0 (broadcastInDim S50000x256 ![] bcast_S_S50000x256),
    StableHlo.TRef.binary (.of main_v64 : StableHlo.TRef sig ⟨S50000x256, .f32⟩) main_call2.v0 main_call2.v1 maximumf,
    StableHlo.binary main_v65 main_arg6 main_v66 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_v29 main_v67 (broadcastInDim S850000x1 ![0] bcast_S850000_S850000x1_0 : (⟨S850000, .f32⟩ : BufTy).Contents (Elt F) → (⟨S850000x1, .f32⟩ : BufTy).Contents (Elt F)),
    StableHlo.nullary main_c_12 (constantI S_ 32 0#32),
    StableHlo.unary main_c_12 main_v68 (broadcastInDim S850000 ![] bcast_S_S850000 : (⟨S_, .i32⟩ : BufTy).Contents (Elt F) → (⟨S850000, .i32⟩ : BufTy).Contents (Elt F)),
    StableHlo.binary main_v3 main_v68 main_v69 (cmpi .slt : (⟨S850000, .i32⟩ : BufTy).Contents (Elt F) → (⟨S850000, .i32⟩ : BufTy).Contents (Elt F) → (⟨S850000, .i1⟩ : BufTy).Contents (Elt F)),
    StableHlo.nullary main_c_13 (constantI S_ 32 50000#32),
    StableHlo.unary main_c_13 main_v70 (broadcastInDim S850000 ![] bcast_S_S850000 : (⟨S_, .i32⟩ : BufTy).Contents (Elt F) → (⟨S850000, .i32⟩ : BufTy).Contents (Elt F)),
    StableHlo.binary main_v3 main_v70 main_v71 (addi : (⟨S850000, .i32⟩ : BufTy).Contents (Elt F) → (⟨S850000, .i32⟩ : BufTy).Contents (Elt F) → (⟨S850000, .i32⟩ : BufTy).Contents (Elt F)),
    StableHlo.ternary main_v69 main_v71 main_v3 main_v72 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v72 main_v73 (broadcastInDim S850000x1 ![0] bcast_S850000_S850000x1_0 : (⟨S850000, .i32⟩ : BufTy).Contents (Elt F) → (⟨S850000x1, .i32⟩ : BufTy).Contents (Elt F)),
    StableHlo.binary main_v66 main_v73 main_v74 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v67 main_v75 (broadcastInDim S850000x256 ![0, 1] bcast_S850000x1_S850000x256_0_1 : (⟨S850000x1, .f32⟩ : BufTy).Contents (Elt F) → (⟨S850000x256, .f32⟩ : BufTy).Contents (Elt F)),
    StableHlo.binary main_v75 main_v74 main_v76 (mulf : (⟨S850000x256, .f32⟩ : BufTy).Contents (Elt F) → (⟨S850000x256, .f32⟩ : BufTy).Contents (Elt F) → (⟨S850000x256, .f32⟩ : BufTy).Contents (Elt F)),
    StableHlo.nullary main_cst_14 (constant S_ .f32 0x00000000#32),
    StableHlo.unary main_cst_14 main_v77 (broadcastInDim S50000x256 ![] bcast_S_S50000x256 : (⟨S_, .f32⟩ : BufTy).Contents (Elt F) → (⟨S50000x256, .f32⟩ : BufTy).Contents (Elt F)),
    StableHlo.unary main_v6 main_v78 (broadcastInDim S850000x1 ![0] bcast_S850000_S850000x1_0 : (⟨S850000, .i32⟩ : BufTy).Contents (Elt F) → (⟨S850000x1, .i32⟩ : BufTy).Contents (Elt F)),
    StableHlo.ternary main_v77 main_v78 main_v76 main_v79 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg7 main_v80 (broadcastInDim S1x256 ![1] bcast_S256_S1x256_1 : (⟨S256, .f32⟩ : BufTy).Contents (Elt F) → (⟨S1x256, .f32⟩ : BufTy).Contents (Elt F)),
    StableHlo.unary main_v80 main_v81 (broadcastInDim S50000x256 ![0, 1] bcast_S1x256_S50000x256_0_1 : (⟨S1x256, .f32⟩ : BufTy).Contents (Elt F) → (⟨S50000x256, .f32⟩ : BufTy).Contents (Elt F)),
    StableHlo.binary main_v79 main_v81 main_v82 (addf : (⟨S50000x256, .f32⟩ : BufTy).Contents (Elt F) → (⟨S50000x256, .f32⟩ : BufTy).Contents (Elt F) → (⟨S50000x256, .f32⟩ : BufTy).Contents (Elt F)),
    StableHlo.TRef.nullary main_call3.cst (constant S_ .f32 0x00000000#32),
    StableHlo.TRef.unary main_call3.cst main_call3.v0 (broadcastInDim S50000x256 ![] bcast_S_S50000x256),
    StableHlo.TRef.binary (.of main_v82 : StableHlo.TRef sig ⟨S50000x256, .f32⟩) main_call3.v0 main_call3.v1 maximumf,
    StableHlo.binary main_v83 main_arg8 main_v84 ((fun l r => Host.dotGeneral dot_S50000x256_S256x40_S50000x40_1_0_0_1_n_n none l r) : (⟨S50000x256, .f32⟩ : BufTy).Contents (Elt F) → (⟨S256x40, .f32⟩ : BufTy).Contents (Elt F) → (⟨S50000x40, .f32⟩ : BufTy).Contents (Elt F)),
    StableHlo.unary main_v29 main_v85 (broadcastInDim S850000x1 ![0] bcast_S850000_S850000x1_0 : (⟨S850000, .f32⟩ : BufTy).Contents (Elt F) → (⟨S850000x1, .f32⟩ : BufTy).Contents (Elt F)),
    StableHlo.nullary main_c_15 (constantI S_ 32 0#32),
    StableHlo.unary main_c_15 main_v86 (broadcastInDim S850000 ![] bcast_S_S850000 : (⟨S_, .i32⟩ : BufTy).Contents (Elt F) → (⟨S850000, .i32⟩ : BufTy).Contents (Elt F)),
    StableHlo.binary main_v3 main_v86 main_v87 (cmpi .slt : (⟨S850000, .i32⟩ : BufTy).Contents (Elt F) → (⟨S850000, .i32⟩ : BufTy).Contents (Elt F) → (⟨S850000, .i1⟩ : BufTy).Contents (Elt F)),
    StableHlo.nullary main_c_16 (constantI S_ 32 50000#32),
    StableHlo.unary main_c_16 main_v88 (broadcastInDim S850000 ![] bcast_S_S850000 : (⟨S_, .i32⟩ : BufTy).Contents (Elt F) → (⟨S850000, .i32⟩ : BufTy).Contents (Elt F)),
    StableHlo.binary main_v3 main_v88 main_v89 (addi : (⟨S850000, .i32⟩ : BufTy).Contents (Elt F) → (⟨S850000, .i32⟩ : BufTy).Contents (Elt F) → (⟨S850000, .i32⟩ : BufTy).Contents (Elt F)),
    StableHlo.ternary main_v87 main_v89 main_v3 main_v90 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v90 main_v91 (broadcastInDim S850000x1 ![0] bcast_S850000_S850000x1_0 : (⟨S850000, .i32⟩ : BufTy).Contents (Elt F) → (⟨S850000x1, .i32⟩ : BufTy).Contents (Elt F)),
    StableHlo.binary main_v84 main_v91 main_v92 ((fun x i => Host.gather gather_S50000x40_S850000x1_S850000x40_1_0_n_n_0_1_140 x i) : (⟨S50000x40, .f32⟩ : BufTy).Contents (Elt F) → (⟨S850000x1, .i32⟩ : BufTy).Contents (Elt F) → (⟨S850000x40, .f32⟩ : BufTy).Contents (Elt F)),
    StableHlo.unary main_v85 main_v93 (broadcastInDim S850000x40 ![0, 1] bcast_S850000x1_S850000x40_0_1 : (⟨S850000x1, .f32⟩ : BufTy).Contents (Elt F) → (⟨S850000x40, .f32⟩ : BufTy).Contents (Elt F)),
    StableHlo.binary main_v93 main_v92 main_v94 (mulf : (⟨S850000x40, .f32⟩ : BufTy).Contents (Elt F) → (⟨S850000x40, .f32⟩ : BufTy).Contents (Elt F) → (⟨S850000x40, .f32⟩ : BufTy).Contents (Elt F)),
    StableHlo.nullary main_cst_17 (constant S_ .f32 0x00000000#32),
    StableHlo.unary main_cst_17 main_v95 (broadcastInDim S50000x40 ![] bcast_S_S50000x40 : (⟨S_, .f32⟩ : BufTy).Contents (Elt F) → (⟨S50000x40, .f32⟩ : BufTy).Contents (Elt F)),
    StableHlo.unary main_v6 main_v96 (broadcastInDim S850000x1 ![0] bcast_S850000_S850000x1_0 : (⟨S850000, .i32⟩ : BufTy).Contents (Elt F) → (⟨S850000x1, .i32⟩ : BufTy).Contents (Elt F)),
    StableHlo.ternary main_v95 main_v96 main_v94 main_v97 ((fun x i u => Host.scatterAdd scatter_S50000x40_S850000x1_S850000x40_1_0_0_1 x i u) : (⟨S50000x40, .f32⟩ : BufTy).Contents (Elt F) → (⟨S850000x1, .i32⟩ : BufTy).Contents (Elt F) → (⟨S850000x40, .f32⟩ : BufTy).Contents (Elt F) → (⟨S50000x40, .f32⟩ : BufTy).Contents (Elt F)),
    StableHlo.unary main_arg9 main_v98 (broadcastInDim S1x40 ![1] bcast_S40_S1x40_1 : (⟨S40, .f32⟩ : BufTy).Contents (Elt F) → (⟨S1x40, .f32⟩ : BufTy).Contents (Elt F)),
    StableHlo.unary main_v98 main_v99 (broadcastInDim S50000x40 ![0, 1] bcast_S1x40_S50000x40_0_1 : (⟨S1x40, .f32⟩ : BufTy).Contents (Elt F) → (⟨S50000x40, .f32⟩ : BufTy).Contents (Elt F)),
    StableHlo.binary main_v97 main_v99 main_v100 (addf : (⟨S50000x40, .f32⟩ : BufTy).Contents (Elt F) → (⟨S50000x40, .f32⟩ : BufTy).Contents (Elt F) → (⟨S50000x40, .f32⟩ : BufTy).Contents (Elt F)) ]

/-- The line is its nine stretches one after the other. -/
theorem ops_split : (ops : List (HloOp τ sig (Elt F))) = opsA ++ (dot0 ++ (opsB ++ (dot1 ++ (opsC ++ (dot2 ++ (opsD ++ (dot3 ++ opsE))))))) := rfl

set_option maxRecDepth 8192 in
set_option maxHeartbeats 4000000 in
/-- @main is the line. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub ..⟩

/-- The contents after the whole line are the stretches' folds, one over the other. -/
theorem after_split (V : Valuation τ sig (Elt F)) :
    after ops V = after opsE (after dot3 (after opsD (after dot2 (after opsC (after dot1 (after opsB (after dot0 (after opsA V)))))))) := by
  rw [ops_split]
  simp only [Cert.LibStretch.after_append]

set_option maxRecDepth 8192 in
/-- Every weakly fair execution of the reference terminates, nothing faulting, with every buffer at the fold of the line
    over its launch contents. -/
theorem run_line (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

end Cert.ReferenceIdeal.Line

end
-- ==== Proof.RefRun.lean ====
/-
  The reference's run with its result and its arguments named.

  No operation of the reference's line writes an argument buffer, so each argument's contents after the whole line are its
  launch contents (`kept_arg…`). With the run of the line this gives `run_ref`: every weakly fair execution of the
  reference terminates, nothing faulting, with the result buffer at the line's fold read at it and every argument array as
  launched.
-/
import proofs.«174991_j10153302687991_1_alg».proof.Proof.RefLine

set_option maxRecDepth 16384

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

theorem kept_arg0 (c : Dev nD) :
    after ops (launchContents m c) (Proc.devRef .tc main_arg0) = m ((c.tc : Thread nD τ).loc main_arg0) := by
  after_results_simp <;> rfl
theorem kept_arg1 (c : Dev nD) :
    after ops (launchContents m c) (Proc.devRef .tc main_arg1) = m ((c.tc : Thread nD τ).loc main_arg1) := by
  after_results_simp <;> rfl
theorem kept_arg2 (c : Dev nD) :
    after ops (launchContents m c) (Proc.devRef .tc main_arg2) = m ((c.tc : Thread nD τ).loc main_arg2) := by
  after_results_simp <;> rfl
theorem kept_arg3 (c : Dev nD) :
    after ops (launchContents m c) (Proc.devRef .tc main_arg3) = m ((c.tc : Thread nD τ).loc main_arg3) := by
  after_results_simp <;> rfl
theorem kept_arg4 (c : Dev nD) :
    after ops (launchContents m c) (Proc.devRef .tc main_arg4) = m ((c.tc : Thread nD τ).loc main_arg4) := by
  after_results_simp <;> rfl
theorem kept_arg5 (c : Dev nD) :
    after ops (launchContents m c) (Proc.devRef .tc main_arg5) = m ((c.tc : Thread nD τ).loc main_arg5) := by
  after_results_simp <;> rfl
theorem kept_arg6 (c : Dev nD) :
    after ops (launchContents m c) (Proc.devRef .tc main_arg6) = m ((c.tc : Thread nD τ).loc main_arg6) := by
  after_results_simp <;> rfl
theorem kept_arg7 (c : Dev nD) :
    after ops (launchContents m c) (Proc.devRef .tc main_arg7) = m ((c.tc : Thread nD τ).loc main_arg7) := by
  after_results_simp <;> rfl
theorem kept_arg8 (c : Dev nD) :
    after ops (launchContents m c) (Proc.devRef .tc main_arg8) = m ((c.tc : Thread nD τ).loc main_arg8) := by
  after_results_simp <;> rfl
theorem kept_arg9 (c : Dev nD) :
    after ops (launchContents m c) (Proc.devRef .tc main_arg9) = m ((c.tc : Thread nD τ).loc main_arg9) := by
  after_results_simp <;> rfl

/-- Every weakly fair execution of the reference terminates, nothing faulting, with the result at the line's fold and the
    arguments as launched. -/
theorem run_ref : θ_run defs (onTc (τ := τ) (main (F := F))) ⟨m, fun _ => 0, ρ⟩ fun r => ∀ c : Dev nD,
      r.2.mem ((c.tc : Thread nD τ).loc main_v100) = after ops (launchContents m c) (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨h c main_v100,
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c),
      (h c main_arg6).trans (kept_arg6 m c),
      (h c main_arg7).trans (kept_arg7 m c),
      (h c main_arg8).trans (kept_arg8 m c),
      (h c main_arg9).trans (kept_arg9 m c)⟩)
    (run_line m ρ)

end Cert.ReferenceIdeal.Line

end
-- ==== Proof.AgreeA.lean ====
/-
  The two programs agree across the operations before the first product.

  Both programs run the same host operations here, one after the other, each from whatever buffer contents it finds.
  So for ANY contents `WK` of the kernel's buffers and `WR` of the reference's that agree on the buffers the stretch
  reads, the contents after the stretch agree on every buffer it computes (each operation's result is the operation's
  function of its operands' contents, and the two lines of functions are the same), and a buffer that no operation of the
  stretch writes keeps its contents on both sides.
-/
import proofs.«174991_j10153302687991_1_alg».proof.Proof.Gen.KernelIdeal.Launch
import proofs.«174991_j10153302687991_1_alg».proof.Proof.RefLine

set_option maxRecDepth 16384

noncomputable section

namespace Cert.Agree.A

open Idealize.ShloMosaic Idealize.ShloMosaic.TcCoe Idealize.ShloMosaic.StableHlo

/-- The operations' results read back by rewriting, one operation at a time: this also reaches an operand that sits
    inside a list of shaped pieces (the two pieces of a concatenation), where a single simplification pass stops. -/
local macro "results_by_rw" : tactic =>
  `(tactic| repeat (first
     | rw [nullary_result] | rw [unary_result] | rw [binary_result] | rw [ternary_result] | rw [reshape_result]
     | (rw [nullary_result_ne]; rotate_left; decide)
     | (rw [unary_result_ne]; rotate_left; decide)
     | (rw [binary_result_ne]; rotate_left; decide)
     | (rw [ternary_result_ne]; rotate_left; decide)
     | (rw [reshape_result_ne]; rotate_left; decide)))

variable {F : FTy → Type} [FloatOps F]
variable (WK : Valuation Cert.KernelIdeal.τ Cert.KernelIdeal.sig (Elt F)) (WR : Valuation Cert.ReferenceIdeal.τ Cert.ReferenceIdeal.sig (Elt F))

/-- What this stretch computes into `v3` is the same function of the contents it reads on both sides. -/
theorem out_v3 (h_arg1 : WK (Proc.devRef .tc Cert.KernelIdeal.main_arg1) = WR (Proc.devRef .tc Cert.ReferenceIdeal.main_arg1)) :
    (StableHlo.after Cert.KernelIdeal.Gen.hostOps0_2 (StableHlo.after Cert.KernelIdeal.Gen.hostOps0_1 (StableHlo.after Cert.KernelIdeal.Gen.hostOps0 WK))) (Proc.devRef .tc Cert.KernelIdeal.main_v3)
      = (StableHlo.after Cert.ReferenceIdeal.Line.opsA WR) (Proc.devRef .tc Cert.ReferenceIdeal.main_v3) := by
  after_results_simp
  results_by_rw
  rw [h_arg1]
  rfl

/-- What this stretch computes into `v6` is the same function of the contents it reads on both sides. -/
theorem out_v6 (h_arg1 : WK (Proc.devRef .tc Cert.KernelIdeal.main_arg1) = WR (Proc.devRef .tc Cert.ReferenceIdeal.main_arg1)) :
    (StableHlo.after Cert.KernelIdeal.Gen.hostOps0_2 (StableHlo.after Cert.KernelIdeal.Gen.hostOps0_1 (StableHlo.after Cert.KernelIdeal.Gen.hostOps0 WK))) (Proc.devRef .tc Cert.KernelIdeal.main_v6)
      = (StableHlo.after Cert.ReferenceIdeal.Line.opsA WR) (Proc.devRef .tc Cert.ReferenceIdeal.main_v6) := by
  after_results_simp
  results_by_rw
  rw [h_arg1]
  rfl

/-- What this stretch computes into `v29` is the same function of the contents it reads on both sides. -/
theorem out_v29 (h_arg1 : WK (Proc.devRef .tc Cert.KernelIdeal.main_arg1) = WR (Proc.devRef .tc Cert.ReferenceIdeal.main_arg1)) :
    (StableHlo.after Cert.KernelIdeal.Gen.hostOps0_2 (StableHlo.after Cert.KernelIdeal.Gen.hostOps0_1 (StableHlo.after Cert.KernelIdeal.Gen.hostOps0 WK))) (Proc.devRef .tc Cert.KernelIdeal.main_v29)
      = (StableHlo.after Cert.ReferenceIdeal.Line.opsA WR) (Proc.devRef .tc Cert.ReferenceIdeal.main_v29) := by
  after_results_simp
  results_by_rw
  rw [h_arg1]
  rfl

/-- No operation of the stretch writes `arg0`: it keeps its contents on both sides. -/
theorem keep_arg0 (h : WK (Proc.devRef .tc Cert.KernelIdeal.main_arg0) = WR (Proc.devRef .tc Cert.ReferenceIdeal.main_arg0)) :
    (StableHlo.after Cert.KernelIdeal.Gen.hostOps0_2 (StableHlo.after Cert.KernelIdeal.Gen.hostOps0_1 (StableHlo.after Cert.KernelIdeal.Gen.hostOps0 WK))) (Proc.devRef .tc Cert.KernelIdeal.main_arg0)
      = (StableHlo.after Cert.ReferenceIdeal.Line.opsA WR) (Proc.devRef .tc Cert.ReferenceIdeal.main_arg0) := by
  after_results_simp
  exact h

/-- No operation of the stretch writes `arg2`: it keeps its contents on both sides. -/
theorem keep_arg2 (h : WK (Proc.devRef .tc Cert.KernelIdeal.main_arg2) = WR (Proc.devRef .tc Cert.ReferenceIdeal.main_arg2)) :
    (StableHlo.after Cert.KernelIdeal.Gen.hostOps0_2 (StableHlo.after Cert.KernelIdeal.Gen.hostOps0_1 (StableHlo.after Cert.KernelIdeal.Gen.hostOps0 WK))) (Proc.devRef .tc Cert.KernelIdeal.main_arg2)
      = (StableHlo.after Cert.ReferenceIdeal.Line.opsA WR) (Proc.devRef .tc Cert.ReferenceIdeal.main_arg2) := by
  after_results_simp
  exact h

/-- No operation of the stretch writes `arg3`: it keeps its contents on both sides. -/
theorem keep_arg3 (h : WK (Proc.devRef .tc Cert.KernelIdeal.main_arg3) = WR (Proc.devRef .tc Cert.ReferenceIdeal.main_arg3)) :
    (StableHlo.after Cert.KernelIdeal.Gen.hostOps0_2 (StableHlo.after Cert.KernelIdeal.Gen.hostOps0_1 (StableHlo.after Cert.KernelIdeal.Gen.hostOps0 WK))) (Proc.devRef .tc Cert.KernelIdeal.main_arg3)
      = (StableHlo.after Cert.ReferenceIdeal.Line.opsA WR) (Proc.devRef .tc Cert.ReferenceIdeal.main_arg3) := by
  after_results_simp
  exact h

/-- No operation of the stretch writes `arg4`: it keeps its contents on both sides. -/
theorem keep_arg4 (h : WK (Proc.devRef .tc Cert.KernelIdeal.main_arg4) = WR (Proc.devRef .tc Cert.ReferenceIdeal.main_arg4)) :
    (StableHlo.after Cert.KernelIdeal.Gen.hostOps0_2 (StableHlo.after Cert.KernelIdeal.Gen.hostOps0_1 (StableHlo.after Cert.KernelIdeal.Gen.hostOps0 WK))) (Proc.devRef .tc Cert.KernelIdeal.main_arg4)
      = (StableHlo.after Cert.ReferenceIdeal.Line.opsA WR) (Proc.devRef .tc Cert.ReferenceIdeal.main_arg4) := by
  after_results_simp
  exact h

/-- No operation of the stretch writes `arg5`: it keeps its contents on both sides. -/
theorem keep_arg5 (h : WK (Proc.devRef .tc Cert.KernelIdeal.main_arg5) = WR (Proc.devRef .tc Cert.ReferenceIdeal.main_arg5)) :
    (StableHlo.after Cert.KernelIdeal.Gen.hostOps0_2 (StableHlo.after Cert.KernelIdeal.Gen.hostOps0_1 (StableHlo.after Cert.KernelIdeal.Gen.hostOps0 WK))) (Proc.devRef .tc Cert.KernelIdeal.main_arg5)
      = (StableHlo.after Cert.ReferenceIdeal.Line.opsA WR) (Proc.devRef .tc Cert.ReferenceIdeal.main_arg5) := by
  after_results_simp
  exact h

/-- No operation of the stretch writes `arg6`: it keeps its contents on both sides. -/
theorem keep_arg6 (h : WK (Proc.devRef .tc Cert.KernelIdeal.main_arg6) = WR (Proc.devRef .tc Cert.ReferenceIdeal.main_arg6)) :
    (StableHlo.after Cert.KernelIdeal.Gen.hostOps0_2 (StableHlo.after Cert.KernelIdeal.Gen.hostOps0_1 (StableHlo.after Cert.KernelIdeal.Gen.hostOps0 WK))) (Proc.devRef .tc Cert.KernelIdeal.main_arg6)
      = (StableHlo.after Cert.ReferenceIdeal.Line.opsA WR) (Proc.devRef .tc Cert.ReferenceIdeal.main_arg6) := by
  after_results_simp
  exact h

/-- No operation of the stretch writes `arg7`: it keeps its contents on both sides. -/
theorem keep_arg7 (h : WK (Proc.devRef .tc Cert.KernelIdeal.main_arg7) = WR (Proc.devRef .tc Cert.ReferenceIdeal.main_arg7)) :
    (StableHlo.after Cert.KernelIdeal.Gen.hostOps0_2 (StableHlo.after Cert.KernelIdeal.Gen.hostOps0_1 (StableHlo.after Cert.KernelIdeal.Gen.hostOps0 WK))) (Proc.devRef .tc Cert.KernelIdeal.main_arg7)
      = (StableHlo.after Cert.ReferenceIdeal.Line.opsA WR) (Proc.devRef .tc Cert.ReferenceIdeal.main_arg7) := by
  after_results_simp
  exact h

/-- No operation of the stretch writes `arg8`: it keeps its contents on both sides. -/
theorem keep_arg8 (h : WK (Proc.devRef .tc Cert.KernelIdeal.main_arg8) = WR (Proc.devRef .tc Cert.ReferenceIdeal.main_arg8)) :
    (StableHlo.after Cert.KernelIdeal.Gen.hostOps0_2 (StableHlo.after Cert.KernelIdeal.Gen.hostOps0_1 (StableHlo.after Cert.KernelIdeal.Gen.hostOps0 WK))) (Proc.devRef .tc Cert.KernelIdeal.main_arg8)
      = (StableHlo.after Cert.ReferenceIdeal.Line.opsA WR) (Proc.devRef .tc Cert.ReferenceIdeal.main_arg8) := by
  after_results_simp
  exact h

/-- No operation of the stretch writes `arg9`: it keeps its contents on both sides. -/
theorem keep_arg9 (h : WK (Proc.devRef .tc Cert.KernelIdeal.main_arg9) = WR (Proc.devRef .tc Cert.ReferenceIdeal.main_arg9)) :
    (StableHlo.after Cert.KernelIdeal.Gen.hostOps0_2 (StableHlo.after Cert.KernelIdeal.Gen.hostOps0_1 (StableHlo.after Cert.KernelIdeal.Gen.hostOps0 WK))) (Proc.devRef .tc Cert.KernelIdeal.main_arg9)
      = (StableHlo.after Cert.ReferenceIdeal.Line.opsA WR) (Proc.devRef .tc Cert.ReferenceIdeal.main_arg9) := by
  after_results_simp
  exact h

end Cert.Agree.A

end
-- ==== Proof.AgreeB.lean ====
/-
  The two programs agree across the stretch between the first and the second product.

  Both programs run the same host operations here, one after the other, each from whatever buffer contents it finds.
  So for ANY contents `WK` of the kernel's buffers and `WR` of the reference's that agree on the buffers the stretch
  reads, the contents after the stretch agree on every buffer it computes (each operation's result is the operation's
  function of its operands' contents, and the two lines of functions are the same), and a buffer that no operation of the
  stretch writes keeps its contents on both sides.
-/
import proofs.«174991_j10153302687991_1_alg».proof.Proof.Gen.KernelIdeal.Launch
import proofs.«174991_j10153302687991_1_alg».proof.Proof.RefLine

set_option maxRecDepth 16384

noncomputable section

namespace Cert.Agree.B

open Idealize.ShloMosaic Idealize.ShloMosaic.TcCoe Idealize.ShloMosaic.StableHlo

variable {F : FTy → Type} [FloatOps F]
variable (WK : Valuation Cert.KernelIdeal.τ Cert.KernelIdeal.sig (Elt F)) (WR : Valuation Cert.ReferenceIdeal.τ Cert.ReferenceIdeal.sig (Elt F))

/-- What the stretch computes into `v47` is the same function of the contents it reads on both sides. -/
theorem out_v47 (h_v29 : WK (Proc.devRef .tc Cert.KernelIdeal.main_v29) = WR (Proc.devRef .tc Cert.ReferenceIdeal.main_v29)) (h_v3 : WK (Proc.devRef .tc Cert.KernelIdeal.main_v3) = WR (Proc.devRef .tc Cert.ReferenceIdeal.main_v3)) (h_v6 : WK (Proc.devRef .tc Cert.KernelIdeal.main_v6) = WR (Proc.devRef .tc Cert.ReferenceIdeal.main_v6)) (h_v30 : WK (Proc.devRef .tc Cert.KernelIdeal.main_v30) = WR (Proc.devRef .tc Cert.ReferenceIdeal.main_v30)) (h_arg3 : WK (Proc.devRef .tc Cert.KernelIdeal.main_arg3) = WR (Proc.devRef .tc Cert.ReferenceIdeal.main_arg3)) :
    (StableHlo.after Cert.KernelIdeal.Gen.hostOps1_1 (StableHlo.after Cert.KernelIdeal.Gen.hostOps1 WK)) (Proc.devRef .tc Cert.KernelIdeal.main_v47)
      = (StableHlo.after Cert.ReferenceIdeal.Line.opsB WR) (Proc.devRef .tc Cert.ReferenceIdeal.main_v47) := by
  after_results_simp
  rw [h_v29, h_v3, h_v6, h_v30, h_arg3]
  rfl

/-- No operation of the stretch writes `v3`: it keeps its contents on both sides. -/
theorem keep_v3 (h : WK (Proc.devRef .tc Cert.KernelIdeal.main_v3) = WR (Proc.devRef .tc Cert.ReferenceIdeal.main_v3)) :
    (StableHlo.after Cert.KernelIdeal.Gen.hostOps1_1 (StableHlo.after Cert.KernelIdeal.Gen.hostOps1 WK)) (Proc.devRef .tc Cert.KernelIdeal.main_v3)
      = (StableHlo.after Cert.ReferenceIdeal.Line.opsB WR) (Proc.devRef .tc Cert.ReferenceIdeal.main_v3) := by
  after_results_simp
  exact h

/-- No operation of the stretch writes `v6`: it keeps its contents on both sides. -/
theorem keep_v6 (h : WK (Proc.devRef .tc Cert.KernelIdeal.main_v6) = WR (Proc.devRef .tc Cert.ReferenceIdeal.main_v6)) :
    (StableHlo.after Cert.KernelIdeal.Gen.hostOps1_1 (StableHlo.after Cert.KernelIdeal.Gen.hostOps1 WK)) (Proc.devRef .tc Cert.KernelIdeal.main_v6)
      = (StableHlo.after Cert.ReferenceIdeal.Line.opsB WR) (Proc.devRef .tc Cert.ReferenceIdeal.main_v6) := by
  after_results_simp
  exact h

/-- No operation of the stretch writes `v29`: it keeps its contents on both sides. -/
theorem keep_v29 (h : WK (Proc.devRef .tc Cert.KernelIdeal.main_v29) = WR (Proc.devRef .tc Cert.ReferenceIdeal.main_v29)) :
    (StableHlo.after Cert.KernelIdeal.Gen.hostOps1_1 (StableHlo.after Cert.KernelIdeal.Gen.hostOps1 WK)) (Proc.devRef .tc Cert.KernelIdeal.main_v29)
      = (StableHlo.after Cert.ReferenceIdeal.Line.opsB WR) (Proc.devRef .tc Cert.ReferenceIdeal.main_v29) := by
  after_results_simp
  exact h

/-- No operation of the stretch writes `arg4`: it keeps its contents on both sides. -/
theorem keep_arg4 (h : WK (Proc.devRef .tc Cert.KernelIdeal.main_arg4) = WR (Proc.devRef .tc Cert.ReferenceIdeal.main_arg4)) :
    (StableHlo.after Cert.KernelIdeal.Gen.hostOps1_1 (StableHlo.after Cert.KernelIdeal.Gen.hostOps1 WK)) (Proc.devRef .tc Cert.KernelIdeal.main_arg4)
      = (StableHlo.after Cert.ReferenceIdeal.Line.opsB WR) (Proc.devRef .tc Cert.ReferenceIdeal.main_arg4) := by
  after_results_simp
  exact h

/-- No operation of the stretch writes `arg5`: it keeps its contents on both sides. -/
theorem keep_arg5 (h : WK (Proc.devRef .tc Cert.KernelIdeal.main_arg5) = WR (Proc.devRef .tc Cert.ReferenceIdeal.main_arg5)) :
    (StableHlo.after Cert.KernelIdeal.Gen.hostOps1_1 (StableHlo.after Cert.KernelIdeal.Gen.hostOps1 WK)) (Proc.devRef .tc Cert.KernelIdeal.main_arg5)
      = (StableHlo.after Cert.ReferenceIdeal.Line.opsB WR) (Proc.devRef .tc Cert.ReferenceIdeal.main_arg5) := by
  after_results_simp
  exact h

/-- No operation of the stretch writes `arg6`: it keeps its contents on both sides. -/
theorem keep_arg6 (h : WK (Proc.devRef .tc Cert.KernelIdeal.main_arg6) = WR (Proc.devRef .tc Cert.ReferenceIdeal.main_arg6)) :
    (StableHlo.after Cert.KernelIdeal.Gen.hostOps1_1 (StableHlo.after Cert.KernelIdeal.Gen.hostOps1 WK)) (Proc.devRef .tc Cert.KernelIdeal.main_arg6)
      = (StableHlo.after Cert.ReferenceIdeal.Line.opsB WR) (Proc.devRef .tc Cert.ReferenceIdeal.main_arg6) := by
  after_results_simp
  exact h

/-- No operation of the stretch writes `arg7`: it keeps its contents on both sides. -/
theorem keep_arg7 (h : WK (Proc.devRef .tc Cert.KernelIdeal.main_arg7) = WR (Proc.devRef .tc Cert.ReferenceIdeal.main_arg7)) :
    (StableHlo.after Cert.KernelIdeal.Gen.hostOps1_1 (StableHlo.after Cert.KernelIdeal.Gen.hostOps1 WK)) (Proc.devRef .tc Cert.KernelIdeal.main_arg7)
      = (StableHlo.after Cert.ReferenceIdeal.Line.opsB WR) (Proc.devRef .tc Cert.ReferenceIdeal.main_arg7) := by
  after_results_simp
  exact h

/-- No operation of the stretch writes `arg8`: it keeps its contents on both sides. -/
theorem keep_arg8 (h : WK (Proc.devRef .tc Cert.KernelIdeal.main_arg8) = WR (Proc.devRef .tc Cert.ReferenceIdeal.main_arg8)) :
    (StableHlo.after Cert.KernelIdeal.Gen.hostOps1_1 (StableHlo.after Cert.KernelIdeal.Gen.hostOps1 WK)) (Proc.devRef .tc Cert.KernelIdeal.main_arg8)
      = (StableHlo.after Cert.ReferenceIdeal.Line.opsB WR) (Proc.devRef .tc Cert.ReferenceIdeal.main_arg8) := by
  after_results_simp
  exact h

/-- No operation of the stretch writes `arg9`: it keeps its contents on both sides. -/
theorem keep_arg9 (h : WK (Proc.devRef .tc Cert.KernelIdeal.main_arg9) = WR (Proc.devRef .tc Cert.ReferenceIdeal.main_arg9)) :
    (StableHlo.after Cert.KernelIdeal.Gen.hostOps1_1 (StableHlo.after Cert.KernelIdeal.Gen.hostOps1 WK)) (Proc.devRef .tc Cert.KernelIdeal.main_arg9)
      = (StableHlo.after Cert.ReferenceIdeal.Line.opsB WR) (Proc.devRef .tc Cert.ReferenceIdeal.main_arg9) := by
  after_results_simp
  exact h

end Cert.Agree.B

end
-- ==== Proof.AgreeC.lean ====
/-
  The two programs agree across the stretch between the second and the third product.

  Both programs run the same host operations here, one after the other, each from whatever buffer contents it finds.
  So for ANY contents `WK` of the kernel's buffers and `WR` of the reference's that agree on the buffers the stretch
  reads, the contents after the stretch agree on every buffer it computes (each operation's result is the operation's
  function of its operands' contents, and the two lines of functions are the same), and a buffer that no operation of the
  stretch writes keeps its contents on both sides.
-/
import proofs.«174991_j10153302687991_1_alg».proof.Proof.Gen.KernelIdeal.Launch
import proofs.«174991_j10153302687991_1_alg».proof.Proof.RefLine

set_option maxRecDepth 16384

noncomputable section

namespace Cert.Agree.C

open Idealize.ShloMosaic Idealize.ShloMosaic.TcCoe Idealize.ShloMosaic.StableHlo

variable {F : FTy → Type} [FloatOps F]
variable (WK : Valuation Cert.KernelIdeal.τ Cert.KernelIdeal.sig (Elt F)) (WR : Valuation Cert.ReferenceIdeal.τ Cert.ReferenceIdeal.sig (Elt F))

/-- What the stretch computes into `v65` is the same function of the contents it reads on both sides. -/
theorem out_v65 (h_v29 : WK (Proc.devRef .tc Cert.KernelIdeal.main_v29) = WR (Proc.devRef .tc Cert.ReferenceIdeal.main_v29)) (h_v3 : WK (Proc.devRef .tc Cert.KernelIdeal.main_v3) = WR (Proc.devRef .tc Cert.ReferenceIdeal.main_v3)) (h_v6 : WK (Proc.devRef .tc Cert.KernelIdeal.main_v6) = WR (Proc.devRef .tc Cert.ReferenceIdeal.main_v6)) (h_v48 : WK (Proc.devRef .tc Cert.KernelIdeal.main_v48) = WR (Proc.devRef .tc Cert.ReferenceIdeal.main_v48)) (h_arg5 : WK (Proc.devRef .tc Cert.KernelIdeal.main_arg5) = WR (Proc.devRef .tc Cert.ReferenceIdeal.main_arg5)) :
    (StableHlo.after Cert.KernelIdeal.Gen.hostOps2_1 (StableHlo.after Cert.KernelIdeal.Gen.hostOps2 WK)) (Proc.devRef .tc Cert.KernelIdeal.main_v65)
      = (StableHlo.after Cert.ReferenceIdeal.Line.opsC WR) (Proc.devRef .tc Cert.ReferenceIdeal.main_v65) := by
  after_results_simp
  rw [h_v29, h_v3, h_v6, h_v48, h_arg5]
  rfl

/-- No operation of the stretch writes `v3`: it keeps its contents on both sides. -/
theorem keep_v3 (h : WK (Proc.devRef .tc Cert.KernelIdeal.main_v3) = WR (Proc.devRef .tc Cert.ReferenceIdeal.main_v3)) :
    (StableHlo.after Cert.KernelIdeal.Gen.hostOps2_1 (StableHlo.after Cert.KernelIdeal.Gen.hostOps2 WK)) (Proc.devRef .tc Cert.KernelIdeal.main_v3)
      = (StableHlo.after Cert.ReferenceIdeal.Line.opsC WR) (Proc.devRef .tc Cert.ReferenceIdeal.main_v3) := by
  after_results_simp
  exact h

/-- No operation of the stretch writes `v6`: it keeps its contents on both sides. -/
theorem keep_v6 (h : WK (Proc.devRef .tc Cert.KernelIdeal.main_v6) = WR (Proc.devRef .tc Cert.ReferenceIdeal.main_v6)) :
    (StableHlo.after Cert.KernelIdeal.Gen.hostOps2_1 (StableHlo.after Cert.KernelIdeal.Gen.hostOps2 WK)) (Proc.devRef .tc Cert.KernelIdeal.main_v6)
      = (StableHlo.after Cert.ReferenceIdeal.Line.opsC WR) (Proc.devRef .tc Cert.ReferenceIdeal.main_v6) := by
  after_results_simp
  exact h

/-- No operation of the stretch writes `v29`: it keeps its contents on both sides. -/
theorem keep_v29 (h : WK (Proc.devRef .tc Cert.KernelIdeal.main_v29) = WR (Proc.devRef .tc Cert.ReferenceIdeal.main_v29)) :
    (StableHlo.after Cert.KernelIdeal.Gen.hostOps2_1 (StableHlo.after Cert.KernelIdeal.Gen.hostOps2 WK)) (Proc.devRef .tc Cert.KernelIdeal.main_v29)
      = (StableHlo.after Cert.ReferenceIdeal.Line.opsC WR) (Proc.devRef .tc Cert.ReferenceIdeal.main_v29) := by
  after_results_simp
  exact h

/-- No operation of the stretch writes `arg6`: it keeps its contents on both sides. -/
theorem keep_arg6 (h : WK (Proc.devRef .tc Cert.KernelIdeal.main_arg6) = WR (Proc.devRef .tc Cert.ReferenceIdeal.main_arg6)) :
    (StableHlo.after Cert.KernelIdeal.Gen.hostOps2_1 (StableHlo.after Cert.KernelIdeal.Gen.hostOps2 WK)) (Proc.devRef .tc Cert.KernelIdeal.main_arg6)
      = (StableHlo.after Cert.ReferenceIdeal.Line.opsC WR) (Proc.devRef .tc Cert.ReferenceIdeal.main_arg6) := by
  after_results_simp
  exact h

/-- No operation of the stretch writes `arg7`: it keeps its contents on both sides. -/
theorem keep_arg7 (h : WK (Proc.devRef .tc Cert.KernelIdeal.main_arg7) = WR (Proc.devRef .tc Cert.ReferenceIdeal.main_arg7)) :
    (StableHlo.after Cert.KernelIdeal.Gen.hostOps2_1 (StableHlo.after Cert.KernelIdeal.Gen.hostOps2 WK)) (Proc.devRef .tc Cert.KernelIdeal.main_arg7)
      = (StableHlo.after Cert.ReferenceIdeal.Line.opsC WR) (Proc.devRef .tc Cert.ReferenceIdeal.main_arg7) := by
  after_results_simp
  exact h

/-- No operation of the stretch writes `arg8`: it keeps its contents on both sides. -/
theorem keep_arg8 (h : WK (Proc.devRef .tc Cert.KernelIdeal.main_arg8) = WR (Proc.devRef .tc Cert.ReferenceIdeal.main_arg8)) :
    (StableHlo.after Cert.KernelIdeal.Gen.hostOps2_1 (StableHlo.after Cert.KernelIdeal.Gen.hostOps2 WK)) (Proc.devRef .tc Cert.KernelIdeal.main_arg8)
      = (StableHlo.after Cert.ReferenceIdeal.Line.opsC WR) (Proc.devRef .tc Cert.ReferenceIdeal.main_arg8) := by
  after_results_simp
  exact h

/-- No operation of the stretch writes `arg9`: it keeps its contents on both sides. -/
theorem keep_arg9 (h : WK (Proc.devRef .tc Cert.KernelIdeal.main_arg9) = WR (Proc.devRef .tc Cert.ReferenceIdeal.main_arg9)) :
    (StableHlo.after Cert.KernelIdeal.Gen.hostOps2_1 (StableHlo.after Cert.KernelIdeal.Gen.hostOps2 WK)) (Proc.devRef .tc Cert.KernelIdeal.main_arg9)
      = (StableHlo.after Cert.ReferenceIdeal.Line.opsC WR) (Proc.devRef .tc Cert.ReferenceIdeal.main_arg9) := by
  after_results_simp
  exact h

end Cert.Agree.C

end
-- ==== Proof.AgreeD.lean ====
/-
  The two programs agree across the stretch between the third and the fourth product.

  Both programs run the same host operations here, one after the other, each from whatever buffer contents it finds.
  So for ANY contents `WK` of the kernel's buffers and `WR` of the reference's that agree on the buffers the stretch
  reads, the contents after the stretch agree on every buffer it computes (each operation's result is the operation's
  function of its operands' contents, and the two lines of functions are the same), and a buffer that no operation of the
  stretch writes keeps its contents on both sides.
-/
import proofs.«174991_j10153302687991_1_alg».proof.Proof.Gen.KernelIdeal.Launch
import proofs.«174991_j10153302687991_1_alg».proof.Proof.RefLine

set_option maxRecDepth 16384

noncomputable section

namespace Cert.Agree.D

open Idealize.ShloMosaic Idealize.ShloMosaic.TcCoe Idealize.ShloMosaic.StableHlo

variable {F : FTy → Type} [FloatOps F]
variable (WK : Valuation Cert.KernelIdeal.τ Cert.KernelIdeal.sig (Elt F)) (WR : Valuation Cert.ReferenceIdeal.τ Cert.ReferenceIdeal.sig (Elt F))

/-- What the stretch computes into `v83` is the same function of the contents it reads on both sides. -/
theorem out_v83 (h_v29 : WK (Proc.devRef .tc Cert.KernelIdeal.main_v29) = WR (Proc.devRef .tc Cert.ReferenceIdeal.main_v29)) (h_v3 : WK (Proc.devRef .tc Cert.KernelIdeal.main_v3) = WR (Proc.devRef .tc Cert.ReferenceIdeal.main_v3)) (h_v6 : WK (Proc.devRef .tc Cert.KernelIdeal.main_v6) = WR (Proc.devRef .tc Cert.ReferenceIdeal.main_v6)) (h_v66 : WK (Proc.devRef .tc Cert.KernelIdeal.main_v66) = WR (Proc.devRef .tc Cert.ReferenceIdeal.main_v66)) (h_arg7 : WK (Proc.devRef .tc Cert.KernelIdeal.main_arg7) = WR (Proc.devRef .tc Cert.ReferenceIdeal.main_arg7)) :
    (StableHlo.after Cert.KernelIdeal.Gen.hostOps3_1 (StableHlo.after Cert.KernelIdeal.Gen.hostOps3 WK)) (Proc.devRef .tc Cert.KernelIdeal.main_v83)
      = (StableHlo.after Cert.ReferenceIdeal.Line.opsD WR) (Proc.devRef .tc Cert.ReferenceIdeal.main_v83) := by
  after_results_simp
  rw [h_v29, h_v3, h_v6, h_v66, h_arg7]
  rfl

/-- No operation of the stretch writes `v3`: it keeps its contents on both sides. -/
theorem keep_v3 (h : WK (Proc.devRef .tc Cert.KernelIdeal.main_v3) = WR (Proc.devRef .tc Cert.ReferenceIdeal.main_v3)) :
    (StableHlo.after Cert.KernelIdeal.Gen.hostOps3_1 (StableHlo.after Cert.KernelIdeal.Gen.hostOps3 WK)) (Proc.devRef .tc Cert.KernelIdeal.main_v3)
      = (StableHlo.after Cert.ReferenceIdeal.Line.opsD WR) (Proc.devRef .tc Cert.ReferenceIdeal.main_v3) := by
  after_results_simp
  exact h

/-- No operation of the stretch writes `v6`: it keeps its contents on both sides. -/
theorem keep_v6 (h : WK (Proc.devRef .tc Cert.KernelIdeal.main_v6) = WR (Proc.devRef .tc Cert.ReferenceIdeal.main_v6)) :
    (StableHlo.after Cert.KernelIdeal.Gen.hostOps3_1 (StableHlo.after Cert.KernelIdeal.Gen.hostOps3 WK)) (Proc.devRef .tc Cert.KernelIdeal.main_v6)
      = (StableHlo.after Cert.ReferenceIdeal.Line.opsD WR) (Proc.devRef .tc Cert.ReferenceIdeal.main_v6) := by
  after_results_simp
  exact h

/-- No operation of the stretch writes `v29`: it keeps its contents on both sides. -/
theorem keep_v29 (h : WK (Proc.devRef .tc Cert.KernelIdeal.main_v29) = WR (Proc.devRef .tc Cert.ReferenceIdeal.main_v29)) :
    (StableHlo.after Cert.KernelIdeal.Gen.hostOps3_1 (StableHlo.after Cert.KernelIdeal.Gen.hostOps3 WK)) (Proc.devRef .tc Cert.KernelIdeal.main_v29)
      = (StableHlo.after Cert.ReferenceIdeal.Line.opsD WR) (Proc.devRef .tc Cert.ReferenceIdeal.main_v29) := by
  after_results_simp
  exact h

/-- No operation of the stretch writes `arg8`: it keeps its contents on both sides. -/
theorem keep_arg8 (h : WK (Proc.devRef .tc Cert.KernelIdeal.main_arg8) = WR (Proc.devRef .tc Cert.ReferenceIdeal.main_arg8)) :
    (StableHlo.after Cert.KernelIdeal.Gen.hostOps3_1 (StableHlo.after Cert.KernelIdeal.Gen.hostOps3 WK)) (Proc.devRef .tc Cert.KernelIdeal.main_arg8)
      = (StableHlo.after Cert.ReferenceIdeal.Line.opsD WR) (Proc.devRef .tc Cert.ReferenceIdeal.main_arg8) := by
  after_results_simp
  exact h

/-- No operation of the stretch writes `arg9`: it keeps its contents on both sides. -/
theorem keep_arg9 (h : WK (Proc.devRef .tc Cert.KernelIdeal.main_arg9) = WR (Proc.devRef .tc Cert.ReferenceIdeal.main_arg9)) :
    (StableHlo.after Cert.KernelIdeal.Gen.hostOps3_1 (StableHlo.after Cert.KernelIdeal.Gen.hostOps3 WK)) (Proc.devRef .tc Cert.KernelIdeal.main_arg9)
      = (StableHlo.after Cert.ReferenceIdeal.Line.opsD WR) (Proc.devRef .tc Cert.ReferenceIdeal.main_arg9) := by
  after_results_simp
  exact h

end Cert.Agree.D

end
-- ==== Proof.AgreeE.lean ====
/-
  The two programs agree across the stretch after the fourth product.

  Both programs run the same host operations here, one after the other, each from whatever buffer contents it finds.
  So for ANY contents `WK` of the kernel's buffers and `WR` of the reference's that agree on the buffers the stretch
  reads, the contents after the stretch agree on every buffer it computes (each operation's result is the operation's
  function of its operands' contents, and the two lines of functions are the same), and a buffer that no operation of the
  stretch writes keeps its contents on both sides.
-/
import proofs.«174991_j10153302687991_1_alg».proof.Proof.Gen.KernelIdeal.Launch
import proofs.«174991_j10153302687991_1_alg».proof.Proof.RefLine

set_option maxRecDepth 16384

noncomputable section

namespace Cert.Agree.E

open Idealize.ShloMosaic Idealize.ShloMosaic.TcCoe Idealize.ShloMosaic.StableHlo

variable {F : FTy → Type} [FloatOps F]
variable (WK : Valuation Cert.KernelIdeal.τ Cert.KernelIdeal.sig (Elt F)) (WR : Valuation Cert.ReferenceIdeal.τ Cert.ReferenceIdeal.sig (Elt F))

/-- What the stretch computes into `v100` is the same function of the contents it reads on both sides. -/
theorem out_v100 (h_v29 : WK (Proc.devRef .tc Cert.KernelIdeal.main_v29) = WR (Proc.devRef .tc Cert.ReferenceIdeal.main_v29)) (h_v3 : WK (Proc.devRef .tc Cert.KernelIdeal.main_v3) = WR (Proc.devRef .tc Cert.ReferenceIdeal.main_v3)) (h_v6 : WK (Proc.devRef .tc Cert.KernelIdeal.main_v6) = WR (Proc.devRef .tc Cert.ReferenceIdeal.main_v6)) (h_v84 : WK (Proc.devRef .tc Cert.KernelIdeal.main_v84) = WR (Proc.devRef .tc Cert.ReferenceIdeal.main_v84)) (h_arg9 : WK (Proc.devRef .tc Cert.KernelIdeal.main_arg9) = WR (Proc.devRef .tc Cert.ReferenceIdeal.main_arg9)) :
    (StableHlo.after Cert.KernelIdeal.Gen.hostOps4 WK) (Proc.devRef .tc Cert.KernelIdeal.main_v100)
      = (StableHlo.after Cert.ReferenceIdeal.Line.opsE WR) (Proc.devRef .tc Cert.ReferenceIdeal.main_v100) := by
  after_results_simp
  rw [h_v29, h_v3, h_v6, h_v84, h_arg9]
  rfl

end Cert.Agree.E

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibProduct.lean ====
/-
  A matrix product as ONE function of its two factors, on the extended reals, for any extents.

  * `product x w` is the `[a, k] × [k, b]` product: entry `(i, j)` is the sum over the contracted coordinate `e` of
    `x (i, e) · w (e, j)`; `square h` multiplies every entry by itself.
  * `matmul_rounded_eq`: the matrix unit's product into a zero accumulator of two `f32` factors each rounded to a shorter
    float format on the way in (left factor's last axis against the right factor's first, no batch axis) is `product` of the
    unrounded factors at the ideal instance, where rounding is the identity.
  * `dotGeneral_eq`: the host's `dot_general` with the same dimension numbers is `product`.
  * `product_congr`, `product_square_congr`: two products (the second: of the left factors squared) agree at two indices
    when the rows of the left factors and the columns of the right factors they read agree — the step that turns "the block a
    grid point computes from a row block" into "the same rows of the whole product".

  Only regrouping of a finite sum is used; no finiteness of the entries is needed.
-/
import Idealize.ShloMosaic.Lib.ValueIdx
import Idealize.ShloMosaic.Lib.Pipeline.Value
import Idealize.ShloMosaic.PureOps.Ideal.Laws
import proofs.«174991_j10153302687991_1_alg».proof.Proof.LibRowMax

noncomputable section

namespace Cert.LibProduct

open Idealize.ShloMosaic Idealize.ShloMosaic.ValueIdx
variable {a k b : ℕ}

/-- The product of an `[a, k]` matrix and a `[k, b]` matrix over the extended reals. -/
def product (x : (⟨2, ![a, k]⟩ : Shape).Idx → EReal) (w : (⟨2, ![k, b]⟩ : Shape).Idx → EReal) :
    (⟨2, ![a, b]⟩ : Shape).Idx → EReal :=
  fun i => ∑ e : Fin k, x (ix2 (i 0) e) * w (ix2 e (i 1))

theorem product_apply (x : (⟨2, ![a, k]⟩ : Shape).Idx → EReal) (w : (⟨2, ![k, b]⟩ : Shape).Idx → EReal) (i : Fin a) (j : Fin b) :
    product x w (ix2 i j) = ∑ e : Fin k, x (ix2 i e) * w (ix2 e j) := rfl

/-- Every entry multiplied by itself. -/
def square {s : Shape} (h : s.Idx → EReal) : s.Idx → EReal := fun i => h i * h i

/-- The matrix unit's product of two factors rounded to a shorter format, into a zero accumulator, is the product. -/
theorem matmul_rounded_eq {φ₁ φ₂ : FTy} (wf : DotDims.WF ⟨2, ![a, k]⟩ ⟨2, ![k, b]⟩ ⟨2, ![a, b]⟩ [1] [0] [0] [1] [] [])
    (prec : Option ContractPrecision) (x : FVec Ideal ⟨2, ![a, k]⟩ .f32) (w : FVec Ideal ⟨2, ![k, b]⟩ .f32)
    (h₁ : φ₁.bits < FTy.f32.bits) (h₂ : φ₂.bits < FTy.f32.bits) :
    FloatOps.matmul (Cert.LibRowMax.plainDims a k b wf) prec (truncf φ₁ x h₁) (truncf φ₂ w h₂)
        (constant ⟨2, ![a, b]⟩ .f32 0x00000000#32)
      = product x w := by
  funext j
  obtain ⟨p, q, rfl⟩ : ∃ (p : Fin a) (q : Fin b), j = ix2 p q := ⟨j 0, j 1, eq_ix2 j⟩
  exact Cert.LibRowMax.matmul_plain_apply wf prec (truncf φ₁ x h₁) (truncf φ₂ w h₂) p q

/-- The host's product of two factors is the product. -/
theorem dotGeneral_eq (wf : DotDims.WF ⟨2, ![a, k]⟩ ⟨2, ![k, b]⟩ ⟨2, ![a, b]⟩ [1] [0] [0] [1] [] [])
    (prec : Option ContractPrecision) (sched : HostSchedule) (x : FVec Ideal ⟨2, ![a, k]⟩ .f32) (w : FVec Ideal ⟨2, ![k, b]⟩ .f32) :
    FloatOps.dotGeneral (Cert.LibRowMax.plainDims a k b wf) prec sched x w = product x w := by
  funext j
  obtain ⟨p, q, rfl⟩ : ∃ (p : Fin a) (q : Fin b), j = ix2 p q := ⟨j 0, j 1, eq_ix2 j⟩
  exact Cert.LibRowMax.dotGeneral_plain_apply wf prec sched x w p q

/-! ## Two products agree at two indices when the rows and the columns they read agree -/

theorem product_congr {a k b a' : ℕ} (x : (⟨2, ![a, k]⟩ : Shape).Idx → EReal) (w : (⟨2, ![k, b]⟩ : Shape).Idx → EReal)
    (X : (⟨2, ![a', k]⟩ : Shape).Idx → EReal) (W : (⟨2, ![k, b]⟩ : Shape).Idx → EReal)
    (j : (⟨2, ![a, b]⟩ : Shape).Idx) (i : (⟨2, ![a', b]⟩ : Shape).Idx)
    (hx : ∀ e : Fin k, x (ix2 (j 0) e) = X (ix2 (i 0) e)) (hw : ∀ e : Fin k, w (ix2 e (j 1)) = W (ix2 e (i 1))) :
    product x w j = product X W i :=
  Finset.sum_congr rfl fun e _ => by rw [hx e, hw e]

theorem product_square_congr {a k b a' : ℕ} (x : (⟨2, ![a, k]⟩ : Shape).Idx → EReal) (w : (⟨2, ![k, b]⟩ : Shape).Idx → EReal)
    (X : (⟨2, ![a', k]⟩ : Shape).Idx → EReal) (W : (⟨2, ![k, b]⟩ : Shape).Idx → EReal)
    (j : (⟨2, ![a, b]⟩ : Shape).Idx) (i : (⟨2, ![a', b]⟩ : Shape).Idx)
    (hx : ∀ e : Fin k, x (ix2 (j 0) e) = X (ix2 (i 0) e)) (hw : ∀ e : Fin k, w (ix2 e (j 1)) = W (ix2 e (i 1))) :
    product (square x) w j = product (square X) W i :=
  Finset.sum_congr rfl fun e _ => by
    show x (ix2 (j 0) e) * x (ix2 (j 0) e) * w (ix2 e (j 1)) = X (ix2 (i 0) e) * X (ix2 (i 0) e) * W (ix2 e (i 1))
    rw [hx e, hw e]

end Cert.LibProduct

end
-- ==== Proof.Rows0.lean ====
/-
  Region 0 of the kernel: the rows of a matrix product, block by block.

  The region's grid has ten points. At point `t` the body loads rows 5000·t … 5000·t + 4999 of the left factor (all 256
  columns) and the whole right factor, rounds both to a shorter float format — the identity on the extended reals —,
  multiplies them into a zero accumulator and stores the block, which is written back to the same rows of the result
  array. The product of a row block with the whole right factor is the same rows of the whole product, because an entry of
  a product reads one row of the left factor and one column of the right one; and the ten row blocks tile the result. So
  after the region the result array is the product of the two arrays as the region found them (`array_eq`).
-/
import proofs.«174991_j10153302687991_1_alg».proof.Proof.Gen.KernelIdeal.Frame
import proofs.«174991_j10153302687991_1_alg».proof.Proof.LibProduct
import Idealize.ShloMosaic.Lib.Pipeline.Value
import Idealize.ShloMosaic.Lib.ValueIdx

set_option maxRecDepth 16384

noncomputable section

namespace Cert.KernelIdeal.Rows0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibProduct

variable (V : (c : Dev nD) → (b : Ref sig .tc) → Buf (Elt Ideal) ((c : Thread nD τ).loc b))

/-- The corner of a whole-buffer access. -/
theorem origin : (![0, 0] : Fin 2 → Nat) = fun _ => 0 := funext fun a => by fin_cases a <;> rfl

/-- The body's arithmetic on its two loaded blocks is their product. -/
theorem payload_eq (x0 : FVec Ideal S5000x256 .f32) (x1 : FVec Ideal S256x256 .f32) :
    k0_pay1 (F := Ideal) x0 x1 = product (a := 5000) (k := 256) (b := 256) x0 x1 := by
  unfold k0_pay1
  exact matmul_rounded_eq dot_S5000x256_S256x256_S5000x256_1_0_0_1_n_n.wf none x0 x1 bitsLt_bf16_f32 bitsLt_bf16_f32

/-- The printed index maps, decided over the ten grid points: the left factor's block and the result's block are the same
    block of rows, and every other block index is zero. -/
theorem index_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every block of rows of the result is some grid point's. -/
theorem index_onto : ∀ q : Fin 10, ∃ t : Fin cfg0.N, win0_2.index t = ![q.val, 0] :=
  (by decide +kernel : ∀ q : Fin 10, ∃ t : Fin grid0.N, win0_2.index t = ![q.val, 0])

/-- The product of the two arrays the region reads, as it finds them. -/
def rows (c : Dev nD) : FVec Ideal S50000x256 .f32 :=
  product (a := 50000) (k := 256) (b := 256) (V c main_arg0) (V c main_arg2)

/-- What grid point `t` writes back is block `t` of the product. -/
theorem flushed_eq (c : Dev nD) (t : Fin cfg0.N) :
    (dat0 V c).flushed 2 t = ((cfg0.win 2).blk t).view.read (Elt Ideal) (rows V c) := by
  show (cfg0.win 2).cut (grid0.coords t) ((dat0 V c).after 2 t) = _
  rw [after0_2]
  unfold out0_2
  rw [View.canon_unit_zero origin]
  simp only [View.ld_unit_zero (S := S5000x256) origin, View.ld_unit_zero (S := S256x256) origin]
  rw [payload_eq]
  obtain ⟨e0, e1, e2, e3, e4, e5⟩ := index_facts t
  funext j
  show product (a := 5000) (k := 256) (b := 256) (iblk0 V c 0 t) (iblk0 V c 1 t) j
    = product (a := 50000) (k := 256) (b := 256) (V c main_arg0) (V c main_arg2) (((cfg0.win 2).blk t).view.emb j)
  refine product_congr _ _ _ _ j _ (fun e => ?_) (fun e => ?_)
  · show V c main_arg0 (((cfg0.win 0).blk t).view.emb (ix2 (j 0) e)) = V c main_arg0 (ix2 ((((cfg0.win 2).blk t).view.emb j) 0) e)
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * e.val = e.val; omega
  · show V c main_arg2 (((cfg0.win 1).blk t).view.emb (ix2 e (j 1))) = V c main_arg2 (ix2 e ((((cfg0.win 2).blk t).view.emb j) 1))
    refine congrArg _ (funext fun a => Fin.ext ?_)
    match a with
    | ⟨0, _⟩ => show win0_1.index t (0 : Fin 2) * 256 + 1 * e.val = e.val; omega
    | ⟨1, _⟩ => show win0_1.index t (1 : Fin 2) * 256 + 1 * (j 1).val = win0_2.index t (1 : Fin 2) * 256 + 1 * (j 1).val; omega

/-- An index of the result array lies in point `t`'s block iff each coordinate lies in the block's range on its axis. -/
theorem mem_block (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v30).slice (win0_2.rect t)).set ↔ _
  rw [View.set_slice_whole, Rect.mem_set_unit]
  exact Iff.rfl

/-- The ten row blocks tile the result: row `i` lies in the block of point `i / 5000`. -/
theorem covered (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- After the region the result array is the product of the two arrays the region read. -/
theorem array_eq (c : Dev nD) : (dat0 V c).arrAt 2 cfg0.N = rows V c :=
  (dat0 V c).arrAt_eq_of_cover 2 (rows V c) (fun t _ => flushed_eq V c t) (covered)

end Cert.KernelIdeal.Rows0

end
-- ==== Proof.AgreeProduct0.lean ====
/-
  The two programs agree across matrix product 1.

  The kernel runs a region here whose write-backs leave, in the result array, the product of the two arrays the region
  read (the rows lemma of this region); the reference runs one host operation whose result is the same product. So the
  result buffers agree when the two factors agree, and every other buffer keeps its contents on both sides: the region
  writes only its result array, the reference's operation only its result.
-/
import proofs.«174991_j10153302687991_1_alg».proof.Proof.Gen.KernelIdeal.Frame
import proofs.«174991_j10153302687991_1_alg».proof.Proof.Rows0
import proofs.«174991_j10153302687991_1_alg».proof.Proof.RefLine
import proofs.«174991_j10153302687991_1_alg».proof.Proof.LibProduct

set_option maxRecDepth 16384

noncomputable section

namespace Cert.Agree.Product0

open Idealize.ShloMosaic Idealize.ShloMosaic.TcCoe Idealize.ShloMosaic.StableHlo Idealize.SL.Sem
open Cert.LibProduct

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD) (WR : Valuation Cert.ReferenceIdeal.τ Cert.ReferenceIdeal.sig (Elt Ideal))

/-- The reference's product operation leaves the product of the two arrays it reads. -/
theorem ref_product :
    StableHlo.after Cert.ReferenceIdeal.Line.dot0 WR (Proc.devRef .tc Cert.ReferenceIdeal.main_v30)
      = product (a := 50000) (k := 256) (b := 256) (WR (Proc.devRef .tc Cert.ReferenceIdeal.main_arg0)) (WR (Proc.devRef .tc Cert.ReferenceIdeal.main_arg2)) := by
  after_results_simp
  exact dotGeneral_eq Cert.ReferenceIdeal.dot_S50000x256_S256x256_S50000x256_1_0_0_1_n_n.wf none _ _ _

/-- After the region the kernel's result array and the reference's product agree, when the two arrays read agree. -/
theorem out_v30 (h_arg0 : Cert.KernelIdeal.Gen.W3 m ρ c (Proc.devRef .tc Cert.KernelIdeal.main_arg0) = WR (Proc.devRef .tc Cert.ReferenceIdeal.main_arg0)) (h_arg2 : Cert.KernelIdeal.Gen.W3 m ρ c (Proc.devRef .tc Cert.KernelIdeal.main_arg2) = WR (Proc.devRef .tc Cert.ReferenceIdeal.main_arg2)) :
    Cert.KernelIdeal.Gen.W4 m ρ c (Proc.devRef .tc Cert.KernelIdeal.main_v30) = StableHlo.after Cert.ReferenceIdeal.Line.dot0 WR (Proc.devRef .tc Cert.ReferenceIdeal.main_v30) := by
  rw [ref_product, ← h_arg0, ← h_arg2]
  exact (Cert.KernelIdeal.Gen.W4_arr m ρ c 2).trans (Cert.KernelIdeal.Rows0.array_eq (Cert.KernelIdeal.Gen.V3 m ρ) c)

/-- `v3` is not one of the region's arrays, and the reference's product does not write it. -/
theorem keep_v3 (h : Cert.KernelIdeal.Gen.W3 m ρ c (Proc.devRef .tc Cert.KernelIdeal.main_v3) = WR (Proc.devRef .tc Cert.ReferenceIdeal.main_v3)) :
    Cert.KernelIdeal.Gen.W4 m ρ c (Proc.devRef .tc Cert.KernelIdeal.main_v3) = StableHlo.after Cert.ReferenceIdeal.Line.dot0 WR (Proc.devRef .tc Cert.ReferenceIdeal.main_v3) := by
  have hR : StableHlo.after Cert.ReferenceIdeal.Line.dot0 WR (Proc.devRef .tc Cert.ReferenceIdeal.main_v3) = WR (Proc.devRef .tc Cert.ReferenceIdeal.main_v3) := by
    after_results_simp
  rw [hR, Cert.KernelIdeal.Gen.W4_of_ne m ρ c Cert.KernelIdeal.main_v3 (by decide)]
  exact h

/-- `v6` is not one of the region's arrays, and the reference's product does not write it. -/
theorem keep_v6 (h : Cert.KernelIdeal.Gen.W3 m ρ c (Proc.devRef .tc Cert.KernelIdeal.main_v6) = WR (Proc.devRef .tc Cert.ReferenceIdeal.main_v6)) :
    Cert.KernelIdeal.Gen.W4 m ρ c (Proc.devRef .tc Cert.KernelIdeal.main_v6) = StableHlo.after Cert.ReferenceIdeal.Line.dot0 WR (Proc.devRef .tc Cert.ReferenceIdeal.main_v6) := by
  have hR : StableHlo.after Cert.ReferenceIdeal.Line.dot0 WR (Proc.devRef .tc Cert.ReferenceIdeal.main_v6) = WR (Proc.devRef .tc Cert.ReferenceIdeal.main_v6) := by
    after_results_simp
  rw [hR, Cert.KernelIdeal.Gen.W4_of_ne m ρ c Cert.KernelIdeal.main_v6 (by decide)]
  exact h

/-- `v29` is not one of the region's arrays, and the reference's product does not write it. -/
theorem keep_v29 (h : Cert.KernelIdeal.Gen.W3 m ρ c (Proc.devRef .tc Cert.KernelIdeal.main_v29) = WR (Proc.devRef .tc Cert.ReferenceIdeal.main_v29)) :
    Cert.KernelIdeal.Gen.W4 m ρ c (Proc.devRef .tc Cert.KernelIdeal.main_v29) = StableHlo.after Cert.ReferenceIdeal.Line.dot0 WR (Proc.devRef .tc Cert.ReferenceIdeal.main_v29) := by
  have hR : StableHlo.after Cert.ReferenceIdeal.Line.dot0 WR (Proc.devRef .tc Cert.ReferenceIdeal.main_v29) = WR (Proc.devRef .tc Cert.ReferenceIdeal.main_v29) := by
    after_results_simp
  rw [hR, Cert.KernelIdeal.Gen.W4_of_ne m ρ c Cert.KernelIdeal.main_v29 (by decide)]
  exact h

/-- `arg3` is not one of the region's arrays, and the reference's product does not write it. -/
theorem keep_arg3 (h : Cert.KernelIdeal.Gen.W3 m ρ c (Proc.devRef .tc Cert.KernelIdeal.main_arg3) = WR (Proc.devRef .tc Cert.ReferenceIdeal.main_arg3)) :
    Cert.KernelIdeal.Gen.W4 m ρ c (Proc.devRef .tc Cert.KernelIdeal.main_arg3) = StableHlo.after Cert.ReferenceIdeal.Line.dot0 WR (Proc.devRef .tc Cert.ReferenceIdeal.main_arg3) := by
  have hR : StableHlo.after Cert.ReferenceIdeal.Line.dot0 WR (Proc.devRef .tc Cert.ReferenceIdeal.main_arg3) = WR (Proc.devRef .tc Cert.ReferenceIdeal.main_arg3) := by
    after_results_simp
  rw [hR, Cert.KernelIdeal.Gen.W4_of_ne m ρ c Cert.KernelIdeal.main_arg3 (by decide)]
  exact h

/-- `arg4` is not one of the region's arrays, and the reference's product does not write it. -/
theorem keep_arg4 (h : Cert.KernelIdeal.Gen.W3 m ρ c (Proc.devRef .tc Cert.KernelIdeal.main_arg4) = WR (Proc.devRef .tc Cert.ReferenceIdeal.main_arg4)) :
    Cert.KernelIdeal.Gen.W4 m ρ c (Proc.devRef .tc Cert.KernelIdeal.main_arg4) = StableHlo.after Cert.ReferenceIdeal.Line.dot0 WR (Proc.devRef .tc Cert.ReferenceIdeal.main_arg4) := by
  have hR : StableHlo.after Cert.ReferenceIdeal.Line.dot0 WR (Proc.devRef .tc Cert.ReferenceIdeal.main_arg4) = WR (Proc.devRef .tc Cert.ReferenceIdeal.main_arg4) := by
    after_results_simp
  rw [hR, Cert.KernelIdeal.Gen.W4_of_ne m ρ c Cert.KernelIdeal.main_arg4 (by decide)]
  exact h

/-- `arg5` is not one of the region's arrays, and the reference's product does not write it. -/
theorem keep_arg5 (h : Cert.KernelIdeal.Gen.W3 m ρ c (Proc.devRef .tc Cert.KernelIdeal.main_arg5) = WR (Proc.devRef .tc Cert.ReferenceIdeal.main_arg5)) :
    Cert.KernelIdeal.Gen.W4 m ρ c (Proc.devRef .tc Cert.KernelIdeal.main_arg5) = StableHlo.after Cert.ReferenceIdeal.Line.dot0 WR (Proc.devRef .tc Cert.ReferenceIdeal.main_arg5) := by
  have hR : StableHlo.after Cert.ReferenceIdeal.Line.dot0 WR (Proc.devRef .tc Cert.ReferenceIdeal.main_arg5) = WR (Proc.devRef .tc Cert.ReferenceIdeal.main_arg5) := by
    after_results_simp
  rw [hR, Cert.KernelIdeal.Gen.W4_of_ne m ρ c Cert.KernelIdeal.main_arg5 (by decide)]
  exact h

/-- `arg6` is not one of the region's arrays, and the reference's product does not write it. -/
theorem keep_arg6 (h : Cert.KernelIdeal.Gen.W3 m ρ c (Proc.devRef .tc Cert.KernelIdeal.main_arg6) = WR (Proc.devRef .tc Cert.ReferenceIdeal.main_arg6)) :
    Cert.KernelIdeal.Gen.W4 m ρ c (Proc.devRef .tc Cert.KernelIdeal.main_arg6) = StableHlo.after Cert.ReferenceIdeal.Line.dot0 WR (Proc.devRef .tc Cert.ReferenceIdeal.main_arg6) := by
  have hR : StableHlo.after Cert.ReferenceIdeal.Line.dot0 WR (Proc.devRef .tc Cert.ReferenceIdeal.main_arg6) = WR (Proc.devRef .tc Cert.ReferenceIdeal.main_arg6) := by
    after_results_simp
  rw [hR, Cert.KernelIdeal.Gen.W4_of_ne m ρ c Cert.KernelIdeal.main_arg6 (by decide)]
  exact h

/-- `arg7` is not one of the region's arrays, and the reference's product does not write it. -/
theorem keep_arg7 (h : Cert.KernelIdeal.Gen.W3 m ρ c (Proc.devRef .tc Cert.KernelIdeal.main_arg7) = WR (Proc.devRef .tc Cert.ReferenceIdeal.main_arg7)) :
    Cert.KernelIdeal.Gen.W4 m ρ c (Proc.devRef .tc Cert.KernelIdeal.main_arg7) = StableHlo.after Cert.ReferenceIdeal.Line.dot0 WR (Proc.devRef .tc Cert.ReferenceIdeal.main_arg7) := by
  have hR : StableHlo.after Cert.ReferenceIdeal.Line.dot0 WR (Proc.devRef .tc Cert.ReferenceIdeal.main_arg7) = WR (Proc.devRef .tc Cert.ReferenceIdeal.main_arg7) := by
    after_results_simp
  rw [hR, Cert.KernelIdeal.Gen.W4_of_ne m ρ c Cert.KernelIdeal.main_arg7 (by decide)]
  exact h

/-- `arg8` is not one of the region's arrays, and the reference's product does not write it. -/
theorem keep_arg8 (h : Cert.KernelIdeal.Gen.W3 m ρ c (Proc.devRef .tc Cert.KernelIdeal.main_arg8) = WR (Proc.devRef .tc Cert.ReferenceIdeal.main_arg8)) :
    Cert.KernelIdeal.Gen.W4 m ρ c (Proc.devRef .tc Cert.KernelIdeal.main_arg8) = StableHlo.after Cert.ReferenceIdeal.Line.dot0 WR (Proc.devRef .tc Cert.ReferenceIdeal.main_arg8) := by
  have hR : StableHlo.after Cert.ReferenceIdeal.Line.dot0 WR (Proc.devRef .tc Cert.ReferenceIdeal.main_arg8) = WR (Proc.devRef .tc Cert.ReferenceIdeal.main_arg8) := by
    after_results_simp
  rw [hR, Cert.KernelIdeal.Gen.W4_of_ne m ρ c Cert.KernelIdeal.main_arg8 (by decide)]
  exact h

/-- `arg9` is not one of the region's arrays, and the reference's product does not write it. -/
theorem keep_arg9 (h : Cert.KernelIdeal.Gen.W3 m ρ c (Proc.devRef .tc Cert.KernelIdeal.main_arg9) = WR (Proc.devRef .tc Cert.ReferenceIdeal.main_arg9)) :
    Cert.KernelIdeal.Gen.W4 m ρ c (Proc.devRef .tc Cert.KernelIdeal.main_arg9) = StableHlo.after Cert.ReferenceIdeal.Line.dot0 WR (Proc.devRef .tc Cert.ReferenceIdeal.main_arg9) := by
  have hR : StableHlo.after Cert.ReferenceIdeal.Line.dot0 WR (Proc.devRef .tc Cert.ReferenceIdeal.main_arg9) = WR (Proc.devRef .tc Cert.ReferenceIdeal.main_arg9) := by
    after_results_simp
  rw [hR, Cert.KernelIdeal.Gen.W4_of_ne m ρ c Cert.KernelIdeal.main_arg9 (by decide)]
  exact h

end Cert.Agree.Product0

end
-- ==== Proof.Rows1.lean ====
/-
  Region 1 of the kernel: the rows of a matrix product, block by block.

  The region's grid has ten points. At point `t` the body loads rows 5000·t … 5000·t + 4999 of the left factor (all 256
  columns) and the whole right factor, rounds both to a shorter float format — the identity on the extended reals —,
  multiplies them into a zero accumulator and stores the block, which is written back to the same rows of the result
  array. The product of a row block with the whole right factor is the same rows of the whole product, because an entry of
  a product reads one row of the left factor and one column of the right one; and the ten row blocks tile the result. So
  after the region the result array is the product of the two arrays as the region found them (`array_eq`).
-/
import proofs.«174991_j10153302687991_1_alg».proof.Proof.Gen.KernelIdeal.Frame
import proofs.«174991_j10153302687991_1_alg».proof.Proof.LibProduct
import Idealize.ShloMosaic.Lib.Pipeline.Value
import Idealize.ShloMosaic.Lib.ValueIdx

set_option maxRecDepth 16384

noncomputable section

namespace Cert.KernelIdeal.Rows1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibProduct

variable (V : (c : Dev nD) → (b : Ref sig .tc) → Buf (Elt Ideal) ((c : Thread nD τ).loc b))

/-- The corner of a whole-buffer access. -/
theorem origin : (![0, 0] : Fin 2 → Nat) = fun _ => 0 := funext fun a => by fin_cases a <;> rfl

/-- The body's arithmetic on its two loaded blocks is their product. -/
theorem payload_eq (x0 : FVec Ideal S5000x256 .f32) (x1 : FVec Ideal S256x256 .f32) :
    k1_pay1 (F := Ideal) x0 x1 = product (a := 5000) (k := 256) (b := 256) x0 x1 := by
  unfold k1_pay1
  rw [shapeCast_self x0 shapeCasts_S5000x256_S5000x256]
  exact matmul_rounded_eq dot_S5000x256_S256x256_S5000x256_1_0_0_1_n_n.wf none x0 x1 bitsLt_bf16_f32 bitsLt_bf16_f32

/-- The printed index maps, decided over the ten grid points: the left factor's block and the result's block are the same
    block of rows, and every other block index is zero. -/
theorem index_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every block of rows of the result is some grid point's. -/
theorem index_onto : ∀ q : Fin 10, ∃ t : Fin cfg1.N, win1_2.index t = ![q.val, 0] :=
  (by decide +kernel : ∀ q : Fin 10, ∃ t : Fin grid1.N, win1_2.index t = ![q.val, 0])

/-- The product of the two arrays the region reads, as it finds them. -/
def rows (c : Dev nD) : FVec Ideal S50000x256 .f32 :=
  product (a := 50000) (k := 256) (b := 256) (V c main_v47) (V c main_arg4)

/-- What grid point `t` writes back is block `t` of the product. -/
theorem flushed_eq (c : Dev nD) (t : Fin cfg1.N) :
    (dat1 V c).flushed 2 t = ((cfg1.win 2).blk t).view.read (Elt Ideal) (rows V c) := by
  show (cfg1.win 2).cut (grid1.coords t) ((dat1 V c).after 2 t) = _
  rw [after1_2]
  unfold out1_2
  rw [View.canon_unit_zero origin]
  simp only [View.ld_unit_zero (S := S5000x256) origin, View.ld_unit_zero (S := S256x256) origin]
  rw [payload_eq]
  obtain ⟨e0, e1, e2, e3, e4, e5⟩ := index_facts t
  funext j
  show product (a := 5000) (k := 256) (b := 256) (iblk1 V c 0 t) (iblk1 V c 1 t) j
    = product (a := 50000) (k := 256) (b := 256) (V c main_v47) (V c main_arg4) (((cfg1.win 2).blk t).view.emb j)
  refine product_congr _ _ _ _ j _ (fun e => ?_) (fun e => ?_)
  · show V c main_v47 (((cfg1.win 0).blk t).view.emb (ix2 (j 0) e)) = V c main_v47 (ix2 ((((cfg1.win 2).blk t).view.emb j) 0) e)
    refine congrArg _ (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 256 + 1 * e.val = e.val; omega
  · show V c main_arg4 (((cfg1.win 1).blk t).view.emb (ix2 e (j 1))) = V c main_arg4 (ix2 e ((((cfg1.win 2).blk t).view.emb j) 1))
    refine congrArg _ (funext fun a => Fin.ext ?_)
    match a with
    | ⟨0, _⟩ => show win1_1.index t (0 : Fin 2) * 256 + 1 * e.val = e.val; omega
    | ⟨1, _⟩ => show win1_1.index t (1 : Fin 2) * 256 + 1 * (j 1).val = win1_2.index t (1 : Fin 2) * 256 + 1 * (j 1).val; omega

/-- An index of the result array lies in point `t`'s block iff each coordinate lies in the block's range on its axis. -/
theorem mem_block (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v48).slice (win1_2.rect t)).set ↔ _
  rw [View.set_slice_whole, Rect.mem_set_unit]
  exact Iff.rfl

/-- The ten row blocks tile the result: row `i` lies in the block of point `i / 5000`. -/
theorem covered (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ := index_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 256 ≤ (i 1).val ∧ (i 1).val < win1_2.index t (1 : Fin 2) * 256 + 256; omega

/-- After the region the result array is the product of the two arrays the region read. -/
theorem array_eq (c : Dev nD) : (dat1 V c).arrAt 2 cfg1.N = rows V c :=
  (dat1 V c).arrAt_eq_of_cover 2 (rows V c) (fun t _ => flushed_eq V c t) (covered)

end Cert.KernelIdeal.Rows1

end
-- ==== Proof.AgreeProduct1.lean ====
/-
  The two programs agree across matrix product 2.

  The kernel runs a region here whose write-backs leave, in the result array, the product of the two arrays the region
  read (the rows lemma of this region); the reference runs one host operation whose result is the same product. So the
  result buffers agree when the two factors agree, and every other buffer keeps its contents on both sides: the region
  writes only its result array, the reference's operation only its result.
-/
import proofs.«174991_j10153302687991_1_alg».proof.Proof.Gen.KernelIdeal.Frame
import proofs.«174991_j10153302687991_1_alg».proof.Proof.Rows1
import proofs.«174991_j10153302687991_1_alg».proof.Proof.RefLine
import proofs.«174991_j10153302687991_1_alg».proof.Proof.LibProduct

set_option maxRecDepth 16384

noncomputable section

namespace Cert.Agree.Product1

open Idealize.ShloMosaic Idealize.ShloMosaic.TcCoe Idealize.ShloMosaic.StableHlo Idealize.SL.Sem
open Cert.LibProduct

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD) (WR : Valuation Cert.ReferenceIdeal.τ Cert.ReferenceIdeal.sig (Elt Ideal))

/-- The reference's product operation leaves the product of the two arrays it reads. -/
theorem ref_product :
    StableHlo.after Cert.ReferenceIdeal.Line.dot1 WR (Proc.devRef .tc Cert.ReferenceIdeal.main_v48)
      = product (a := 50000) (k := 256) (b := 256) (WR (Proc.devRef .tc Cert.ReferenceIdeal.main_v47)) (WR (Proc.devRef .tc Cert.ReferenceIdeal.main_arg4)) := by
  after_results_simp
  exact dotGeneral_eq Cert.ReferenceIdeal.dot_S50000x256_S256x256_S50000x256_1_0_0_1_n_n.wf none _ _ _

/-- After the region the kernel's result array and the reference's product agree, when the two arrays read agree. -/
theorem out_v48 (h_v47 : Cert.KernelIdeal.Gen.W6 m ρ c (Proc.devRef .tc Cert.KernelIdeal.main_v47) = WR (Proc.devRef .tc Cert.ReferenceIdeal.main_v47)) (h_arg4 : Cert.KernelIdeal.Gen.W6 m ρ c (Proc.devRef .tc Cert.KernelIdeal.main_arg4) = WR (Proc.devRef .tc Cert.ReferenceIdeal.main_arg4)) :
    Cert.KernelIdeal.Gen.W7 m ρ c (Proc.devRef .tc Cert.KernelIdeal.main_v48) = StableHlo.after Cert.ReferenceIdeal.Line.dot1 WR (Proc.devRef .tc Cert.ReferenceIdeal.main_v48) := by
  rw [ref_product, ← h_v47, ← h_arg4]
  exact (Cert.KernelIdeal.Gen.W7_arr m ρ c 2).trans (Cert.KernelIdeal.Rows1.array_eq (Cert.KernelIdeal.Gen.V6 m ρ) c)

/-- `v3` is not one of the region's arrays, and the reference's product does not write it. -/
theorem keep_v3 (h : Cert.KernelIdeal.Gen.W6 m ρ c (Proc.devRef .tc Cert.KernelIdeal.main_v3) = WR (Proc.devRef .tc Cert.ReferenceIdeal.main_v3)) :
    Cert.KernelIdeal.Gen.W7 m ρ c (Proc.devRef .tc Cert.KernelIdeal.main_v3) = StableHlo.after Cert.ReferenceIdeal.Line.dot1 WR (Proc.devRef .tc Cert.ReferenceIdeal.main_v3) := by
  rw [Cert.KernelIdeal.Gen.W7_of_ne m ρ c Cert.KernelIdeal.main_v3 (by decide)]
  after_results_simp
  exact h

/-- `v6` is not one of the region's arrays, and the reference's product does not write it. -/
theorem keep_v6 (h : Cert.KernelIdeal.Gen.W6 m ρ c (Proc.devRef .tc Cert.KernelIdeal.main_v6) = WR (Proc.devRef .tc Cert.ReferenceIdeal.main_v6)) :
    Cert.KernelIdeal.Gen.W7 m ρ c (Proc.devRef .tc Cert.KernelIdeal.main_v6) = StableHlo.after Cert.ReferenceIdeal.Line.dot1 WR (Proc.devRef .tc Cert.ReferenceIdeal.main_v6) := by
  rw [Cert.KernelIdeal.Gen.W7_of_ne m ρ c Cert.KernelIdeal.main_v6 (by decide)]
  after_results_simp
  exact h

/-- `v29` is not one of the region's arrays, and the reference's product does not write it. -/
theorem keep_v29 (h : Cert.KernelIdeal.Gen.W6 m ρ c (Proc.devRef .tc Cert.KernelIdeal.main_v29) = WR (Proc.devRef .tc Cert.ReferenceIdeal.main_v29)) :
    Cert.KernelIdeal.Gen.W7 m ρ c (Proc.devRef .tc Cert.KernelIdeal.main_v29) = StableHlo.after Cert.ReferenceIdeal.Line.dot1 WR (Proc.devRef .tc Cert.ReferenceIdeal.main_v29) := by
  rw [Cert.KernelIdeal.Gen.W7_of_ne m ρ c Cert.KernelIdeal.main_v29 (by decide)]
  after_results_simp
  exact h

/-- `arg5` is not one of the region's arrays, and the reference's product does not write it. -/
theorem keep_arg5 (h : Cert.KernelIdeal.Gen.W6 m ρ c (Proc.devRef .tc Cert.KernelIdeal.main_arg5) = WR (Proc.devRef .tc Cert.ReferenceIdeal.main_arg5)) :
    Cert.KernelIdeal.Gen.W7 m ρ c (Proc.devRef .tc Cert.KernelIdeal.main_arg5) = StableHlo.after Cert.ReferenceIdeal.Line.dot1 WR (Proc.devRef .tc Cert.ReferenceIdeal.main_arg5) := by
  rw [Cert.KernelIdeal.Gen.W7_of_ne m ρ c Cert.KernelIdeal.main_arg5 (by decide)]
  after_results_simp
  exact h

/-- `arg6` is not one of the region's arrays, and the reference's product does not write it. -/
theorem keep_arg6 (h : Cert.KernelIdeal.Gen.W6 m ρ c (Proc.devRef .tc Cert.KernelIdeal.main_arg6) = WR (Proc.devRef .tc Cert.ReferenceIdeal.main_arg6)) :
    Cert.KernelIdeal.Gen.W7 m ρ c (Proc.devRef .tc Cert.KernelIdeal.main_arg6) = StableHlo.after Cert.ReferenceIdeal.Line.dot1 WR (Proc.devRef .tc Cert.ReferenceIdeal.main_arg6) := by
  rw [Cert.KernelIdeal.Gen.W7_of_ne m ρ c Cert.KernelIdeal.main_arg6 (by decide)]
  after_results_simp
  exact h

/-- `arg7` is not one of the region's arrays, and the reference's product does not write it. -/
theorem keep_arg7 (h : Cert.KernelIdeal.Gen.W6 m ρ c (Proc.devRef .tc Cert.KernelIdeal.main_arg7) = WR (Proc.devRef .tc Cert.ReferenceIdeal.main_arg7)) :
    Cert.KernelIdeal.Gen.W7 m ρ c (Proc.devRef .tc Cert.KernelIdeal.main_arg7) = StableHlo.after Cert.ReferenceIdeal.Line.dot1 WR (Proc.devRef .tc Cert.ReferenceIdeal.main_arg7) := by
  rw [Cert.KernelIdeal.Gen.W7_of_ne m ρ c Cert.KernelIdeal.main_arg7 (by decide)]
  after_results_simp
  exact h

/-- `arg8` is not one of the region's arrays, and the reference's product does not write it. -/
theorem keep_arg8 (h : Cert.KernelIdeal.Gen.W6 m ρ c (Proc.devRef .tc Cert.KernelIdeal.main_arg8) = WR (Proc.devRef .tc Cert.ReferenceIdeal.main_arg8)) :
    Cert.KernelIdeal.Gen.W7 m ρ c (Proc.devRef .tc Cert.KernelIdeal.main_arg8) = StableHlo.after Cert.ReferenceIdeal.Line.dot1 WR (Proc.devRef .tc Cert.ReferenceIdeal.main_arg8) := by
  rw [Cert.KernelIdeal.Gen.W7_of_ne m ρ c Cert.KernelIdeal.main_arg8 (by decide)]
  after_results_simp
  exact h

/-- `arg9` is not one of the region's arrays, and the reference's product does not write it. -/
theorem keep_arg9 (h : Cert.KernelIdeal.Gen.W6 m ρ c (Proc.devRef .tc Cert.KernelIdeal.main_arg9) = WR (Proc.devRef .tc Cert.ReferenceIdeal.main_arg9)) :
    Cert.KernelIdeal.Gen.W7 m ρ c (Proc.devRef .tc Cert.KernelIdeal.main_arg9) = StableHlo.after Cert.ReferenceIdeal.Line.dot1 WR (Proc.devRef .tc Cert.ReferenceIdeal.main_arg9) := by
  rw [Cert.KernelIdeal.Gen.W7_of_ne m ρ c Cert.KernelIdeal.main_arg9 (by decide)]
  after_results_simp
  exact h

end Cert.Agree.Product1

end
-- ==== Proof.Rows2.lean ====
/-
  Region 2 of the kernel: the rows of a matrix product, block by block.

  The region's grid has ten points. At point `t` the body loads rows 5000·t … 5000·t + 4999 of the left factor (all 256
  columns) and the whole right factor, rounds both to a shorter float format — the identity on the extended reals —,
  multiplies them into a zero accumulator and stores the block, which is written back to the same rows of the result
  array. The product of a row block with the whole right factor is the same rows of the whole product, because an entry of
  a product reads one row of the left factor and one column of the right one; and the ten row blocks tile the result. So
  after the region the result array is the product of the two arrays as the region found them (`array_eq`).
-/
import proofs.«174991_j10153302687991_1_alg».proof.Proof.Gen.KernelIdeal.Frame
import proofs.«174991_j10153302687991_1_alg».proof.Proof.LibProduct
import Idealize.ShloMosaic.Lib.Pipeline.Value
import Idealize.ShloMosaic.Lib.ValueIdx

set_option maxRecDepth 16384

noncomputable section

namespace Cert.KernelIdeal.Rows2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibProduct

variable (V : (c : Dev nD) → (b : Ref sig .tc) → Buf (Elt Ideal) ((c : Thread nD τ).loc b))

/-- The corner of a whole-buffer access. -/
theorem origin : (![0, 0] : Fin 2 → Nat) = fun _ => 0 := funext fun a => by fin_cases a <;> rfl

/-- The body's arithmetic on its two loaded blocks is their product. -/
theorem payload_eq (x0 : FVec Ideal S5000x256 .f32) (x1 : FVec Ideal S256x256 .f32) :
    k2_pay1 (F := Ideal) x0 x1 = product (a := 5000) (k := 256) (b := 256) x0 x1 := by
  unfold k2_pay1
  rw [shapeCast_self x0 shapeCasts_S5000x256_S5000x256]
  exact matmul_rounded_eq dot_S5000x256_S256x256_S5000x256_1_0_0_1_n_n.wf none x0 x1 bitsLt_bf16_f32 bitsLt_bf16_f32

/-- The printed index maps, decided over the ten grid points: the left factor's block and the result's block are the same
    block of rows, and every other block index is zero. -/
theorem index_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every block of rows of the result is some grid point's. -/
theorem index_onto : ∀ q : Fin 10, ∃ t : Fin cfg2.N, win2_2.index t = ![q.val, 0] :=
  (by decide +kernel : ∀ q : Fin 10, ∃ t : Fin grid2.N, win2_2.index t = ![q.val, 0])

/-- The product of the two arrays the region reads, as it finds them. -/
def rows (c : Dev nD) : FVec Ideal S50000x256 .f32 :=
  product (a := 50000) (k := 256) (b := 256) (V c main_v65) (V c main_arg6)

/-- What grid point `t` writes back is block `t` of the product. -/
theorem flushed_eq (c : Dev nD) (t : Fin cfg2.N) :
    (dat2 V c).flushed 2 t = ((cfg2.win 2).blk t).view.read (Elt Ideal) (rows V c) := by
  show (cfg2.win 2).cut (grid2.coords t) ((dat2 V c).after 2 t) = _
  rw [after2_2]
  unfold out2_2
  rw [View.canon_unit_zero origin]
  simp only [View.ld_unit_zero (S := S5000x256) origin, View.ld_unit_zero (S := S256x256) origin]
  rw [payload_eq]
  obtain ⟨e0, e1, e2, e3, e4, e5⟩ := index_facts t
  funext j
  show product (a := 5000) (k := 256) (b := 256) (iblk2 V c 0 t) (iblk2 V c 1 t) j
    = product (a := 50000) (k := 256) (b := 256) (V c main_v65) (V c main_arg6) (((cfg2.win 2).blk t).view.emb j)
  refine product_congr _ _ _ _ j _ (fun e => ?_) (fun e => ?_)
  · show V c main_v65 (((cfg2.win 0).blk t).view.emb (ix2 (j 0) e)) = V c main_v65 (ix2 ((((cfg2.win 2).blk t).view.emb j) 0) e)
    refine congrArg _ (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 256 + 1 * e.val = e.val; omega
  · show V c main_arg6 (((cfg2.win 1).blk t).view.emb (ix2 e (j 1))) = V c main_arg6 (ix2 e ((((cfg2.win 2).blk t).view.emb j) 1))
    refine congrArg _ (funext fun a => Fin.ext ?_)
    match a with
    | ⟨0, _⟩ => show win2_1.index t (0 : Fin 2) * 256 + 1 * e.val = e.val; omega
    | ⟨1, _⟩ => show win2_1.index t (1 : Fin 2) * 256 + 1 * (j 1).val = win2_2.index t (1 : Fin 2) * 256 + 1 * (j 1).val; omega

/-- An index of the result array lies in point `t`'s block iff each coordinate lies in the block's range on its axis. -/
theorem mem_block (t : Fin cfg2.N) (i : S50000x256.Idx) :
    i ∈ ((cfg2.win 2).blk t).view.set ↔ ∀ a : Fin 2, win2_2.index t a * S5000x256.size a ≤ (i a).val ∧ (i a).val < win2_2.index t a * S5000x256.size a + S5000x256.size a := by
  show i ∈ ((View.whole main_v66).slice (win2_2.rect t)).set ↔ _
  rw [View.set_slice_whole, Rect.mem_set_unit]
  exact Iff.rfl

/-- The ten row blocks tile the result: row `i` lies in the block of point `i / 5000`. -/
theorem covered (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  obtain ⟨t, ht⟩ := index_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 256 ≤ (i 1).val ∧ (i 1).val < win2_2.index t (1 : Fin 2) * 256 + 256; omega

/-- After the region the result array is the product of the two arrays the region read. -/
theorem array_eq (c : Dev nD) : (dat2 V c).arrAt 2 cfg2.N = rows V c :=
  (dat2 V c).arrAt_eq_of_cover 2 (rows V c) (fun t _ => flushed_eq V c t) (covered)

end Cert.KernelIdeal.Rows2

end
-- ==== Proof.AgreeProduct2.lean ====
/-
  The two programs agree across matrix product 3.

  The kernel runs a region here whose write-backs leave, in the result array, the product of the two arrays the region
  read (the rows lemma of this region); the reference runs one host operation whose result is the same product. So the
  result buffers agree when the two factors agree, and every other buffer keeps its contents on both sides: the region
  writes only its result array, the reference's operation only its result.
-/
import proofs.«174991_j10153302687991_1_alg».proof.Proof.Gen.KernelIdeal.Frame
import proofs.«174991_j10153302687991_1_alg».proof.Proof.Rows2
import proofs.«174991_j10153302687991_1_alg».proof.Proof.RefLine
import proofs.«174991_j10153302687991_1_alg».proof.Proof.LibProduct

set_option maxRecDepth 16384

noncomputable section

namespace Cert.Agree.Product2

open Idealize.ShloMosaic Idealize.ShloMosaic.TcCoe Idealize.ShloMosaic.StableHlo Idealize.SL.Sem
open Cert.LibProduct

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD) (WR : Valuation Cert.ReferenceIdeal.τ Cert.ReferenceIdeal.sig (Elt Ideal))

/-- The reference's product operation leaves the product of the two arrays it reads. -/
theorem ref_product :
    StableHlo.after Cert.ReferenceIdeal.Line.dot2 WR (Proc.devRef .tc Cert.ReferenceIdeal.main_v66)
      = product (a := 50000) (k := 256) (b := 256) (WR (Proc.devRef .tc Cert.ReferenceIdeal.main_v65)) (WR (Proc.devRef .tc Cert.ReferenceIdeal.main_arg6)) := by
  after_results_simp
  exact dotGeneral_eq Cert.ReferenceIdeal.dot_S50000x256_S256x256_S50000x256_1_0_0_1_n_n.wf none _ _ _

/-- After the region the kernel's result array and the reference's product agree, when the two arrays read agree. -/
theorem out_v66 (h_v65 : Cert.KernelIdeal.Gen.W9 m ρ c (Proc.devRef .tc Cert.KernelIdeal.main_v65) = WR (Proc.devRef .tc Cert.ReferenceIdeal.main_v65)) (h_arg6 : Cert.KernelIdeal.Gen.W9 m ρ c (Proc.devRef .tc Cert.KernelIdeal.main_arg6) = WR (Proc.devRef .tc Cert.ReferenceIdeal.main_arg6)) :
    Cert.KernelIdeal.Gen.W10 m ρ c (Proc.devRef .tc Cert.KernelIdeal.main_v66) = StableHlo.after Cert.ReferenceIdeal.Line.dot2 WR (Proc.devRef .tc Cert.ReferenceIdeal.main_v66) := by
  rw [ref_product, ← h_v65, ← h_arg6]
  exact (Cert.KernelIdeal.Gen.W10_arr m ρ c 2).trans (Cert.KernelIdeal.Rows2.array_eq (Cert.KernelIdeal.Gen.V9 m ρ) c)

/-- `v3` is not one of the region's arrays, and the reference's product does not write it. -/
theorem keep_v3 (h : Cert.KernelIdeal.Gen.W9 m ρ c (Proc.devRef .tc Cert.KernelIdeal.main_v3) = WR (Proc.devRef .tc Cert.ReferenceIdeal.main_v3)) :
    Cert.KernelIdeal.Gen.W10 m ρ c (Proc.devRef .tc Cert.KernelIdeal.main_v3) = StableHlo.after Cert.ReferenceIdeal.Line.dot2 WR (Proc.devRef .tc Cert.ReferenceIdeal.main_v3) := by
  rw [Cert.KernelIdeal.Gen.W10_of_ne m ρ c Cert.KernelIdeal.main_v3 (by decide)]
  after_results_simp
  exact h

/-- `v6` is not one of the region's arrays, and the reference's product does not write it. -/
theorem keep_v6 (h : Cert.KernelIdeal.Gen.W9 m ρ c (Proc.devRef .tc Cert.KernelIdeal.main_v6) = WR (Proc.devRef .tc Cert.ReferenceIdeal.main_v6)) :
    Cert.KernelIdeal.Gen.W10 m ρ c (Proc.devRef .tc Cert.KernelIdeal.main_v6) = StableHlo.after Cert.ReferenceIdeal.Line.dot2 WR (Proc.devRef .tc Cert.ReferenceIdeal.main_v6) := by
  rw [Cert.KernelIdeal.Gen.W10_of_ne m ρ c Cert.KernelIdeal.main_v6 (by decide)]
  after_results_simp
  exact h

/-- `v29` is not one of the region's arrays, and the reference's product does not write it. -/
theorem keep_v29 (h : Cert.KernelIdeal.Gen.W9 m ρ c (Proc.devRef .tc Cert.KernelIdeal.main_v29) = WR (Proc.devRef .tc Cert.ReferenceIdeal.main_v29)) :
    Cert.KernelIdeal.Gen.W10 m ρ c (Proc.devRef .tc Cert.KernelIdeal.main_v29) = StableHlo.after Cert.ReferenceIdeal.Line.dot2 WR (Proc.devRef .tc Cert.ReferenceIdeal.main_v29) := by
  rw [Cert.KernelIdeal.Gen.W10_of_ne m ρ c Cert.KernelIdeal.main_v29 (by decide)]
  after_results_simp
  exact h

/-- `arg7` is not one of the region's arrays, and the reference's product does not write it. -/
theorem keep_arg7 (h : Cert.KernelIdeal.Gen.W9 m ρ c (Proc.devRef .tc Cert.KernelIdeal.main_arg7) = WR (Proc.devRef .tc Cert.ReferenceIdeal.main_arg7)) :
    Cert.KernelIdeal.Gen.W10 m ρ c (Proc.devRef .tc Cert.KernelIdeal.main_arg7) = StableHlo.after Cert.ReferenceIdeal.Line.dot2 WR (Proc.devRef .tc Cert.ReferenceIdeal.main_arg7) := by
  rw [Cert.KernelIdeal.Gen.W10_of_ne m ρ c Cert.KernelIdeal.main_arg7 (by decide)]
  after_results_simp
  exact h

/-- `arg8` is not one of the region's arrays, and the reference's product does not write it. -/
theorem keep_arg8 (h : Cert.KernelIdeal.Gen.W9 m ρ c (Proc.devRef .tc Cert.KernelIdeal.main_arg8) = WR (Proc.devRef .tc Cert.ReferenceIdeal.main_arg8)) :
    Cert.KernelIdeal.Gen.W10 m ρ c (Proc.devRef .tc Cert.KernelIdeal.main_arg8) = StableHlo.after Cert.ReferenceIdeal.Line.dot2 WR (Proc.devRef .tc Cert.ReferenceIdeal.main_arg8) := by
  rw [Cert.KernelIdeal.Gen.W10_of_ne m ρ c Cert.KernelIdeal.main_arg8 (by decide)]
  after_results_simp
  exact h

/-- `arg9` is not one of the region's arrays, and the reference's product does not write it. -/
theorem keep_arg9 (h : Cert.KernelIdeal.Gen.W9 m ρ c (Proc.devRef .tc Cert.KernelIdeal.main_arg9) = WR (Proc.devRef .tc Cert.ReferenceIdeal.main_arg9)) :
    Cert.KernelIdeal.Gen.W10 m ρ c (Proc.devRef .tc Cert.KernelIdeal.main_arg9) = StableHlo.after Cert.ReferenceIdeal.Line.dot2 WR (Proc.devRef .tc Cert.ReferenceIdeal.main_arg9) := by
  rw [Cert.KernelIdeal.Gen.W10_of_ne m ρ c Cert.KernelIdeal.main_arg9 (by decide)]
  after_results_simp
  exact h

end Cert.Agree.Product2

end
-- ==== Proof.Rows3.lean ====
/-
  Region 3 of the kernel: the rows of a matrix product, block by block.

  The region's grid has ten points. At point `t` the body loads rows 5000·t … 5000·t + 4999 of the left factor (all 256
  columns) and the whole right factor, rounds both to a shorter float format — the identity on the extended reals —,
  multiplies them into a zero accumulator and stores the block, which is written back to the same rows of the result
  array. The product of a row block with the whole right factor is the same rows of the whole product, because an entry of
  a product reads one row of the left factor and one column of the right one; and the ten row blocks tile the result. So
  after the region the result array is the product of the two arrays as the region found them (`array_eq`).
-/
import proofs.«174991_j10153302687991_1_alg».proof.Proof.Gen.KernelIdeal.Frame
import proofs.«174991_j10153302687991_1_alg».proof.Proof.LibProduct
import Idealize.ShloMosaic.Lib.Pipeline.Value
import Idealize.ShloMosaic.Lib.ValueIdx

set_option maxRecDepth 16384

noncomputable section

namespace Cert.KernelIdeal.Rows3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibProduct

variable (V : (c : Dev nD) → (b : Ref sig .tc) → Buf (Elt Ideal) ((c : Thread nD τ).loc b))

/-- The corner of a whole-buffer access. -/
theorem origin : (![0, 0] : Fin 2 → Nat) = fun _ => 0 := funext fun a => by fin_cases a <;> rfl

/-- The body's arithmetic on its two loaded blocks is their product. -/
theorem payload_eq (x0 : FVec Ideal S5000x256 .f32) (x1 : FVec Ideal S256x40 .f32) :
    k3_pay1 (F := Ideal) x0 x1 = product (a := 5000) (k := 256) (b := 40) x0 x1 := by
  unfold k3_pay1
  rw [shapeCast_self x0 shapeCasts_S5000x256_S5000x256]
  exact matmul_rounded_eq dot_S5000x256_S256x40_S5000x40_1_0_0_1_n_n.wf none x0 x1 bitsLt_bf16_f32 bitsLt_bf16_f32

/-- The printed index maps, decided over the ten grid points: the left factor's block and the result's block are the same
    block of rows, and every other block index is zero. -/
theorem index_facts : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every block of rows of the result is some grid point's. -/
theorem index_onto : ∀ q : Fin 10, ∃ t : Fin cfg3.N, win3_2.index t = ![q.val, 0] :=
  (by decide +kernel : ∀ q : Fin 10, ∃ t : Fin grid3.N, win3_2.index t = ![q.val, 0])

/-- The product of the two arrays the region reads, as it finds them. -/
def rows (c : Dev nD) : FVec Ideal S50000x40 .f32 :=
  product (a := 50000) (k := 256) (b := 40) (V c main_v83) (V c main_arg8)

/-- What grid point `t` writes back is block `t` of the product. -/
theorem flushed_eq (c : Dev nD) (t : Fin cfg3.N) :
    (dat3 V c).flushed 2 t = ((cfg3.win 2).blk t).view.read (Elt Ideal) (rows V c) := by
  show (cfg3.win 2).cut (grid3.coords t) ((dat3 V c).after 2 t) = _
  rw [after3_2]
  unfold out3_2
  rw [View.canon_unit_zero origin]
  simp only [View.ld_unit_zero (S := S5000x256) origin, View.ld_unit_zero (S := S256x40) origin]
  rw [payload_eq]
  obtain ⟨e0, e1, e2, e3, e4, e5⟩ := index_facts t
  funext j
  show product (a := 5000) (k := 256) (b := 40) (iblk3 V c 0 t) (iblk3 V c 1 t) j
    = product (a := 50000) (k := 256) (b := 40) (V c main_v83) (V c main_arg8) (((cfg3.win 2).blk t).view.emb j)
  refine product_congr _ _ _ _ j _ (fun e => ?_) (fun e => ?_)
  · show V c main_v83 (((cfg3.win 0).blk t).view.emb (ix2 (j 0) e)) = V c main_v83 (ix2 ((((cfg3.win 2).blk t).view.emb j) 0) e)
    refine congrArg _ (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 256 + 1 * e.val = e.val; omega
  · show V c main_arg8 (((cfg3.win 1).blk t).view.emb (ix2 e (j 1))) = V c main_arg8 (ix2 e ((((cfg3.win 2).blk t).view.emb j) 1))
    refine congrArg _ (funext fun a => Fin.ext ?_)
    match a with
    | ⟨0, _⟩ => show win3_1.index t (0 : Fin 2) * 256 + 1 * e.val = e.val; omega
    | ⟨1, _⟩ => show win3_1.index t (1 : Fin 2) * 40 + 1 * (j 1).val = win3_2.index t (1 : Fin 2) * 40 + 1 * (j 1).val; omega

/-- An index of the result array lies in point `t`'s block iff each coordinate lies in the block's range on its axis. -/
theorem mem_block (t : Fin cfg3.N) (i : S50000x40.Idx) :
    i ∈ ((cfg3.win 2).blk t).view.set ↔ ∀ a : Fin 2, win3_2.index t a * S5000x40.size a ≤ (i a).val ∧ (i a).val < win3_2.index t a * S5000x40.size a + S5000x40.size a := by
  show i ∈ ((View.whole main_v84).slice (win3_2.rect t)).set ↔ _
  rw [View.set_slice_whole, Rect.mem_set_unit]
  exact Iff.rfl

/-- The ten row blocks tile the result: row `i` lies in the block of point `i / 5000`. -/
theorem covered (i : S50000x40.Idx) :
    ∃ t : Fin cfg3.N, (cfg3.win 2).flush t = true ∧ i ∈ ((cfg3.win 2).blk t).view.set := by
  have hi0 : (i 0).val < 50000 := (i 0).isLt
  have hi1 : (i 1).val < 40 := (i 1).isLt
  obtain ⟨t, ht⟩ := index_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 40 ≤ (i 1).val ∧ (i 1).val < win3_2.index t (1 : Fin 2) * 40 + 40; omega

/-- After the region the result array is the product of the two arrays the region read. -/
theorem array_eq (c : Dev nD) : (dat3 V c).arrAt 2 cfg3.N = rows V c :=
  (dat3 V c).arrAt_eq_of_cover 2 (rows V c) (fun t _ => flushed_eq V c t) (covered)

end Cert.KernelIdeal.Rows3

end
-- ==== Proof.AgreeProduct3.lean ====
/-
  The two programs agree across matrix product 4.

  The kernel runs a region here whose write-backs leave, in the result array, the product of the two arrays the region
  read (the rows lemma of this region); the reference runs one host operation whose result is the same product. So the
  result buffers agree when the two factors agree, and every other buffer keeps its contents on both sides: the region
  writes only its result array, the reference's operation only its result.
-/
import proofs.«174991_j10153302687991_1_alg».proof.Proof.Gen.KernelIdeal.Frame
import proofs.«174991_j10153302687991_1_alg».proof.Proof.Rows3
import proofs.«174991_j10153302687991_1_alg».proof.Proof.RefLine
import proofs.«174991_j10153302687991_1_alg».proof.Proof.LibProduct

set_option maxRecDepth 16384

noncomputable section

namespace Cert.Agree.Product3

open Idealize.ShloMosaic Idealize.ShloMosaic.TcCoe Idealize.ShloMosaic.StableHlo Idealize.SL.Sem
open Cert.LibProduct

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD) (WR : Valuation Cert.ReferenceIdeal.τ Cert.ReferenceIdeal.sig (Elt Ideal))

/-- The reference's product operation leaves the product of the two arrays it reads. -/
theorem ref_product :
    StableHlo.after Cert.ReferenceIdeal.Line.dot3 WR (Proc.devRef .tc Cert.ReferenceIdeal.main_v84)
      = product (a := 50000) (k := 256) (b := 40) (WR (Proc.devRef .tc Cert.ReferenceIdeal.main_v83)) (WR (Proc.devRef .tc Cert.ReferenceIdeal.main_arg8)) := by
  after_results_simp
  exact dotGeneral_eq Cert.ReferenceIdeal.dot_S50000x256_S256x40_S50000x40_1_0_0_1_n_n.wf none _ _ _

/-- After the region the kernel's result array and the reference's product agree, when the two arrays read agree. -/
theorem out_v84 (h_v83 : Cert.KernelIdeal.Gen.W12 m ρ c (Proc.devRef .tc Cert.KernelIdeal.main_v83) = WR (Proc.devRef .tc Cert.ReferenceIdeal.main_v83)) (h_arg8 : Cert.KernelIdeal.Gen.W12 m ρ c (Proc.devRef .tc Cert.KernelIdeal.main_arg8) = WR (Proc.devRef .tc Cert.ReferenceIdeal.main_arg8)) :
    Cert.KernelIdeal.Gen.W13 m ρ c (Proc.devRef .tc Cert.KernelIdeal.main_v84) = StableHlo.after Cert.ReferenceIdeal.Line.dot3 WR (Proc.devRef .tc Cert.ReferenceIdeal.main_v84) := by
  rw [ref_product, ← h_v83, ← h_arg8]
  exact (Cert.KernelIdeal.Gen.W13_arr m ρ c 2).trans (Cert.KernelIdeal.Rows3.array_eq (Cert.KernelIdeal.Gen.V12 m ρ) c)

/-- `v3` is not one of the region's arrays, and the reference's product does not write it. -/
theorem keep_v3 (h : Cert.KernelIdeal.Gen.W12 m ρ c (Proc.devRef .tc Cert.KernelIdeal.main_v3) = WR (Proc.devRef .tc Cert.ReferenceIdeal.main_v3)) :
    Cert.KernelIdeal.Gen.W13 m ρ c (Proc.devRef .tc Cert.KernelIdeal.main_v3) = StableHlo.after Cert.ReferenceIdeal.Line.dot3 WR (Proc.devRef .tc Cert.ReferenceIdeal.main_v3) := by
  rw [Cert.KernelIdeal.Gen.W13_of_ne m ρ c Cert.KernelIdeal.main_v3 (by decide)]
  after_results_simp
  exact h

/-- `v6` is not one of the region's arrays, and the reference's product does not write it. -/
theorem keep_v6 (h : Cert.KernelIdeal.Gen.W12 m ρ c (Proc.devRef .tc Cert.KernelIdeal.main_v6) = WR (Proc.devRef .tc Cert.ReferenceIdeal.main_v6)) :
    Cert.KernelIdeal.Gen.W13 m ρ c (Proc.devRef .tc Cert.KernelIdeal.main_v6) = StableHlo.after Cert.ReferenceIdeal.Line.dot3 WR (Proc.devRef .tc Cert.ReferenceIdeal.main_v6) := by
  rw [Cert.KernelIdeal.Gen.W13_of_ne m ρ c Cert.KernelIdeal.main_v6 (by decide)]
  after_results_simp
  exact h

/-- `v29` is not one of the region's arrays, and the reference's product does not write it. -/
theorem keep_v29 (h : Cert.KernelIdeal.Gen.W12 m ρ c (Proc.devRef .tc Cert.KernelIdeal.main_v29) = WR (Proc.devRef .tc Cert.ReferenceIdeal.main_v29)) :
    Cert.KernelIdeal.Gen.W13 m ρ c (Proc.devRef .tc Cert.KernelIdeal.main_v29) = StableHlo.after Cert.ReferenceIdeal.Line.dot3 WR (Proc.devRef .tc Cert.ReferenceIdeal.main_v29) := by
  rw [Cert.KernelIdeal.Gen.W13_of_ne m ρ c Cert.KernelIdeal.main_v29 (by decide)]
  after_results_simp
  exact h

/-- `arg9` is not one of the region's arrays, and the reference's product does not write it. -/
theorem keep_arg9 (h : Cert.KernelIdeal.Gen.W12 m ρ c (Proc.devRef .tc Cert.KernelIdeal.main_arg9) = WR (Proc.devRef .tc Cert.ReferenceIdeal.main_arg9)) :
    Cert.KernelIdeal.Gen.W13 m ρ c (Proc.devRef .tc Cert.KernelIdeal.main_arg9) = StableHlo.after Cert.ReferenceIdeal.Line.dot3 WR (Proc.devRef .tc Cert.ReferenceIdeal.main_arg9) := by
  rw [Cert.KernelIdeal.Gen.W13_of_ne m ρ c Cert.KernelIdeal.main_arg9 (by decide)]
  after_results_simp
  exact h

end Cert.Agree.Product3

end
-- ==== Proof.AgreeAll.lean ====
/-
  From the launch to the return: the kernel's result is the reference's.

  Both programs start from argument arrays that agree. Walking the nine stretches in order — host operations, product,
  host operations, …, the last host operations — each stretch's lemma turns agreement of the buffers it reads into agreement
  of the buffers the later stretches read: the two edge lists with their self-loops (`v3`, `v6`), the per-edge weight
  (`v29`), the current layer's array, and the arguments not yet used. After the last stretch the two result buffers agree.
-/
import proofs.«174991_j10153302687991_1_alg».proof.Proof.AgreeA
import proofs.«174991_j10153302687991_1_alg».proof.Proof.AgreeB
import proofs.«174991_j10153302687991_1_alg».proof.Proof.AgreeC
import proofs.«174991_j10153302687991_1_alg».proof.Proof.AgreeD
import proofs.«174991_j10153302687991_1_alg».proof.Proof.AgreeE
import proofs.«174991_j10153302687991_1_alg».proof.Proof.AgreeProduct0
import proofs.«174991_j10153302687991_1_alg».proof.Proof.AgreeProduct1
import proofs.«174991_j10153302687991_1_alg».proof.Proof.AgreeProduct2
import proofs.«174991_j10153302687991_1_alg».proof.Proof.AgreeProduct3

set_option maxRecDepth 16384
set_option maxHeartbeats 4000000

noncomputable section

namespace Cert.Agree

open Idealize.ShloMosaic Idealize.ShloMosaic.TcCoe Idealize.ShloMosaic.StableHlo Idealize.SL.Sem

/-- The kernel's result buffer at the end of its run holds what the reference's holds at the end of its line, when the
    two launch memories agree on the ten arguments. -/
theorem result_agree
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (g0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (g1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (g2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (g3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (g4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (g5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (g6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (g7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (g8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (g9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.KernelIdeal.Gen.W14 m ρ c (Proc.devRef .tc Cert.KernelIdeal.main_v100)
      = after Cert.ReferenceIdeal.Line.ops (launchContents m' c) (Proc.devRef .tc Cert.ReferenceIdeal.main_v100) := by
  rw [Cert.ReferenceIdeal.Line.after_split]
  have a0_arg0 : (Cert.KernelIdeal.Gen.W0 m ρ c) (Proc.devRef .tc Cert.KernelIdeal.main_arg0) = (launchContents m' c) (Proc.devRef .tc Cert.ReferenceIdeal.main_arg0) := g0.symm
  have a0_arg1 : (Cert.KernelIdeal.Gen.W0 m ρ c) (Proc.devRef .tc Cert.KernelIdeal.main_arg1) = (launchContents m' c) (Proc.devRef .tc Cert.ReferenceIdeal.main_arg1) := g1.symm
  have a0_arg2 : (Cert.KernelIdeal.Gen.W0 m ρ c) (Proc.devRef .tc Cert.KernelIdeal.main_arg2) = (launchContents m' c) (Proc.devRef .tc Cert.ReferenceIdeal.main_arg2) := g2.symm
  have a0_arg3 : (Cert.KernelIdeal.Gen.W0 m ρ c) (Proc.devRef .tc Cert.KernelIdeal.main_arg3) = (launchContents m' c) (Proc.devRef .tc Cert.ReferenceIdeal.main_arg3) := g3.symm
  have a0_arg4 : (Cert.KernelIdeal.Gen.W0 m ρ c) (Proc.devRef .tc Cert.KernelIdeal.main_arg4) = (launchContents m' c) (Proc.devRef .tc Cert.ReferenceIdeal.main_arg4) := g4.symm
  have a0_arg5 : (Cert.KernelIdeal.Gen.W0 m ρ c) (Proc.devRef .tc Cert.KernelIdeal.main_arg5) = (launchContents m' c) (Proc.devRef .tc Cert.ReferenceIdeal.main_arg5) := g5.symm
  have a0_arg6 : (Cert.KernelIdeal.Gen.W0 m ρ c) (Proc.devRef .tc Cert.KernelIdeal.main_arg6) = (launchContents m' c) (Proc.devRef .tc Cert.ReferenceIdeal.main_arg6) := g6.symm
  have a0_arg7 : (Cert.KernelIdeal.Gen.W0 m ρ c) (Proc.devRef .tc Cert.KernelIdeal.main_arg7) = (launchContents m' c) (Proc.devRef .tc Cert.ReferenceIdeal.main_arg7) := g7.symm
  have a0_arg8 : (Cert.KernelIdeal.Gen.W0 m ρ c) (Proc.devRef .tc Cert.KernelIdeal.main_arg8) = (launchContents m' c) (Proc.devRef .tc Cert.ReferenceIdeal.main_arg8) := g8.symm
  have a0_arg9 : (Cert.KernelIdeal.Gen.W0 m ρ c) (Proc.devRef .tc Cert.KernelIdeal.main_arg9) = (launchContents m' c) (Proc.devRef .tc Cert.ReferenceIdeal.main_arg9) := g9.symm
  have a3_v3 := Cert.Agree.A.out_v3 (Cert.KernelIdeal.Gen.W0 m ρ c) (launchContents m' c) a0_arg1
  have a3_v6 := Cert.Agree.A.out_v6 (Cert.KernelIdeal.Gen.W0 m ρ c) (launchContents m' c) a0_arg1
  have a3_v29 := Cert.Agree.A.out_v29 (Cert.KernelIdeal.Gen.W0 m ρ c) (launchContents m' c) a0_arg1
  have a3_arg0 := Cert.Agree.A.keep_arg0 (Cert.KernelIdeal.Gen.W0 m ρ c) (launchContents m' c) a0_arg0
  have a3_arg2 := Cert.Agree.A.keep_arg2 (Cert.KernelIdeal.Gen.W0 m ρ c) (launchContents m' c) a0_arg2
  have a3_arg3 := Cert.Agree.A.keep_arg3 (Cert.KernelIdeal.Gen.W0 m ρ c) (launchContents m' c) a0_arg3
  have a3_arg4 := Cert.Agree.A.keep_arg4 (Cert.KernelIdeal.Gen.W0 m ρ c) (launchContents m' c) a0_arg4
  have a3_arg5 := Cert.Agree.A.keep_arg5 (Cert.KernelIdeal.Gen.W0 m ρ c) (launchContents m' c) a0_arg5
  have a3_arg6 := Cert.Agree.A.keep_arg6 (Cert.KernelIdeal.Gen.W0 m ρ c) (launchContents m' c) a0_arg6
  have a3_arg7 := Cert.Agree.A.keep_arg7 (Cert.KernelIdeal.Gen.W0 m ρ c) (launchContents m' c) a0_arg7
  have a3_arg8 := Cert.Agree.A.keep_arg8 (Cert.KernelIdeal.Gen.W0 m ρ c) (launchContents m' c) a0_arg8
  have a3_arg9 := Cert.Agree.A.keep_arg9 (Cert.KernelIdeal.Gen.W0 m ρ c) (launchContents m' c) a0_arg9
  have a4_v30 := Cert.Agree.Product0.out_v30 m ρ c (after Cert.ReferenceIdeal.Line.opsA (launchContents m' c)) a3_arg0 a3_arg2
  have a4_v3 := Cert.Agree.Product0.keep_v3 m ρ c (after Cert.ReferenceIdeal.Line.opsA (launchContents m' c)) a3_v3
  have a4_v6 := Cert.Agree.Product0.keep_v6 m ρ c (after Cert.ReferenceIdeal.Line.opsA (launchContents m' c)) a3_v6
  have a4_v29 := Cert.Agree.Product0.keep_v29 m ρ c (after Cert.ReferenceIdeal.Line.opsA (launchContents m' c)) a3_v29
  have a4_arg3 := Cert.Agree.Product0.keep_arg3 m ρ c (after Cert.ReferenceIdeal.Line.opsA (launchContents m' c)) a3_arg3
  have a4_arg4 := Cert.Agree.Product0.keep_arg4 m ρ c (after Cert.ReferenceIdeal.Line.opsA (launchContents m' c)) a3_arg4
  have a4_arg5 := Cert.Agree.Product0.keep_arg5 m ρ c (after Cert.ReferenceIdeal.Line.opsA (launchContents m' c)) a3_arg5
  have a4_arg6 := Cert.Agree.Product0.keep_arg6 m ρ c (after Cert.ReferenceIdeal.Line.opsA (launchContents m' c)) a3_arg6
  have a4_arg7 := Cert.Agree.Product0.keep_arg7 m ρ c (after Cert.ReferenceIdeal.Line.opsA (launchContents m' c)) a3_arg7
  have a4_arg8 := Cert.Agree.Product0.keep_arg8 m ρ c (after Cert.ReferenceIdeal.Line.opsA (launchContents m' c)) a3_arg8
  have a4_arg9 := Cert.Agree.Product0.keep_arg9 m ρ c (after Cert.ReferenceIdeal.Line.opsA (launchContents m' c)) a3_arg9
  have a6_v47 := Cert.Agree.B.out_v47 (Cert.KernelIdeal.Gen.W4 m ρ c) (after Cert.ReferenceIdeal.Line.dot0 (after Cert.ReferenceIdeal.Line.opsA (launchContents m' c))) a4_v29 a4_v3 a4_v6 a4_v30 a4_arg3
  have a6_v3 := Cert.Agree.B.keep_v3 (Cert.KernelIdeal.Gen.W4 m ρ c) (after Cert.ReferenceIdeal.Line.dot0 (after Cert.ReferenceIdeal.Line.opsA (launchContents m' c))) a4_v3
  have a6_v6 := Cert.Agree.B.keep_v6 (Cert.KernelIdeal.Gen.W4 m ρ c) (after Cert.ReferenceIdeal.Line.dot0 (after Cert.ReferenceIdeal.Line.opsA (launchContents m' c))) a4_v6
  have a6_v29 := Cert.Agree.B.keep_v29 (Cert.KernelIdeal.Gen.W4 m ρ c) (after Cert.ReferenceIdeal.Line.dot0 (after Cert.ReferenceIdeal.Line.opsA (launchContents m' c))) a4_v29
  have a6_arg4 := Cert.Agree.B.keep_arg4 (Cert.KernelIdeal.Gen.W4 m ρ c) (after Cert.ReferenceIdeal.Line.dot0 (after Cert.ReferenceIdeal.Line.opsA (launchContents m' c))) a4_arg4
  have a6_arg5 := Cert.Agree.B.keep_arg5 (Cert.KernelIdeal.Gen.W4 m ρ c) (after Cert.ReferenceIdeal.Line.dot0 (after Cert.ReferenceIdeal.Line.opsA (launchContents m' c))) a4_arg5
  have a6_arg6 := Cert.Agree.B.keep_arg6 (Cert.KernelIdeal.Gen.W4 m ρ c) (after Cert.ReferenceIdeal.Line.dot0 (after Cert.ReferenceIdeal.Line.opsA (launchContents m' c))) a4_arg6
  have a6_arg7 := Cert.Agree.B.keep_arg7 (Cert.KernelIdeal.Gen.W4 m ρ c) (after Cert.ReferenceIdeal.Line.dot0 (after Cert.ReferenceIdeal.Line.opsA (launchContents m' c))) a4_arg7
  have a6_arg8 := Cert.Agree.B.keep_arg8 (Cert.KernelIdeal.Gen.W4 m ρ c) (after Cert.ReferenceIdeal.Line.dot0 (after Cert.ReferenceIdeal.Line.opsA (launchContents m' c))) a4_arg8
  have a6_arg9 := Cert.Agree.B.keep_arg9 (Cert.KernelIdeal.Gen.W4 m ρ c) (after Cert.ReferenceIdeal.Line.dot0 (after Cert.ReferenceIdeal.Line.opsA (launchContents m' c))) a4_arg9
  have a7_v48 := Cert.Agree.Product1.out_v48 m ρ c (after Cert.ReferenceIdeal.Line.opsB (after Cert.ReferenceIdeal.Line.dot0 (after Cert.ReferenceIdeal.Line.opsA (launchContents m' c)))) a6_v47 a6_arg4
  have a7_v3 := Cert.Agree.Product1.keep_v3 m ρ c (after Cert.ReferenceIdeal.Line.opsB (after Cert.ReferenceIdeal.Line.dot0 (after Cert.ReferenceIdeal.Line.opsA (launchContents m' c)))) a6_v3
  have a7_v6 := Cert.Agree.Product1.keep_v6 m ρ c (after Cert.ReferenceIdeal.Line.opsB (after Cert.ReferenceIdeal.Line.dot0 (after Cert.ReferenceIdeal.Line.opsA (launchContents m' c)))) a6_v6
  have a7_v29 := Cert.Agree.Product1.keep_v29 m ρ c (after Cert.ReferenceIdeal.Line.opsB (after Cert.ReferenceIdeal.Line.dot0 (after Cert.ReferenceIdeal.Line.opsA (launchContents m' c)))) a6_v29
  have a7_arg5 := Cert.Agree.Product1.keep_arg5 m ρ c (after Cert.ReferenceIdeal.Line.opsB (after Cert.ReferenceIdeal.Line.dot0 (after Cert.ReferenceIdeal.Line.opsA (launchContents m' c)))) a6_arg5
  have a7_arg6 := Cert.Agree.Product1.keep_arg6 m ρ c (after Cert.ReferenceIdeal.Line.opsB (after Cert.ReferenceIdeal.Line.dot0 (after Cert.ReferenceIdeal.Line.opsA (launchContents m' c)))) a6_arg6
  have a7_arg7 := Cert.Agree.Product1.keep_arg7 m ρ c (after Cert.ReferenceIdeal.Line.opsB (after Cert.ReferenceIdeal.Line.dot0 (after Cert.ReferenceIdeal.Line.opsA (launchContents m' c)))) a6_arg7
  have a7_arg8 := Cert.Agree.Product1.keep_arg8 m ρ c (after Cert.ReferenceIdeal.Line.opsB (after Cert.ReferenceIdeal.Line.dot0 (after Cert.ReferenceIdeal.Line.opsA (launchContents m' c)))) a6_arg8
  have a7_arg9 := Cert.Agree.Product1.keep_arg9 m ρ c (after Cert.ReferenceIdeal.Line.opsB (after Cert.ReferenceIdeal.Line.dot0 (after Cert.ReferenceIdeal.Line.opsA (launchContents m' c)))) a6_arg9
  have a9_v65 := Cert.Agree.C.out_v65 (Cert.KernelIdeal.Gen.W7 m ρ c) (after Cert.ReferenceIdeal.Line.dot1 (after Cert.ReferenceIdeal.Line.opsB (after Cert.ReferenceIdeal.Line.dot0 (after Cert.ReferenceIdeal.Line.opsA (launchContents m' c))))) a7_v29 a7_v3 a7_v6 a7_v48 a7_arg5
  have a9_v3 := Cert.Agree.C.keep_v3 (Cert.KernelIdeal.Gen.W7 m ρ c) (after Cert.ReferenceIdeal.Line.dot1 (after Cert.ReferenceIdeal.Line.opsB (after Cert.ReferenceIdeal.Line.dot0 (after Cert.ReferenceIdeal.Line.opsA (launchContents m' c))))) a7_v3
  have a9_v6 := Cert.Agree.C.keep_v6 (Cert.KernelIdeal.Gen.W7 m ρ c) (after Cert.ReferenceIdeal.Line.dot1 (after Cert.ReferenceIdeal.Line.opsB (after Cert.ReferenceIdeal.Line.dot0 (after Cert.ReferenceIdeal.Line.opsA (launchContents m' c))))) a7_v6
  have a9_v29 := Cert.Agree.C.keep_v29 (Cert.KernelIdeal.Gen.W7 m ρ c) (after Cert.ReferenceIdeal.Line.dot1 (after Cert.ReferenceIdeal.Line.opsB (after Cert.ReferenceIdeal.Line.dot0 (after Cert.ReferenceIdeal.Line.opsA (launchContents m' c))))) a7_v29
  have a9_arg6 := Cert.Agree.C.keep_arg6 (Cert.KernelIdeal.Gen.W7 m ρ c) (after Cert.ReferenceIdeal.Line.dot1 (after Cert.ReferenceIdeal.Line.opsB (after Cert.ReferenceIdeal.Line.dot0 (after Cert.ReferenceIdeal.Line.opsA (launchContents m' c))))) a7_arg6
  have a9_arg7 := Cert.Agree.C.keep_arg7 (Cert.KernelIdeal.Gen.W7 m ρ c) (after Cert.ReferenceIdeal.Line.dot1 (after Cert.ReferenceIdeal.Line.opsB (after Cert.ReferenceIdeal.Line.dot0 (after Cert.ReferenceIdeal.Line.opsA (launchContents m' c))))) a7_arg7
  have a9_arg8 := Cert.Agree.C.keep_arg8 (Cert.KernelIdeal.Gen.W7 m ρ c) (after Cert.ReferenceIdeal.Line.dot1 (after Cert.ReferenceIdeal.Line.opsB (after Cert.ReferenceIdeal.Line.dot0 (after Cert.ReferenceIdeal.Line.opsA (launchContents m' c))))) a7_arg8
  have a9_arg9 := Cert.Agree.C.keep_arg9 (Cert.KernelIdeal.Gen.W7 m ρ c) (after Cert.ReferenceIdeal.Line.dot1 (after Cert.ReferenceIdeal.Line.opsB (after Cert.ReferenceIdeal.Line.dot0 (after Cert.ReferenceIdeal.Line.opsA (launchContents m' c))))) a7_arg9
  have a10_v66 := Cert.Agree.Product2.out_v66 m ρ c (after Cert.ReferenceIdeal.Line.opsC (after Cert.ReferenceIdeal.Line.dot1 (after Cert.ReferenceIdeal.Line.opsB (after Cert.ReferenceIdeal.Line.dot0 (after Cert.ReferenceIdeal.Line.opsA (launchContents m' c)))))) a9_v65 a9_arg6
  have a10_v3 := Cert.Agree.Product2.keep_v3 m ρ c (after Cert.ReferenceIdeal.Line.opsC (after Cert.ReferenceIdeal.Line.dot1 (after Cert.ReferenceIdeal.Line.opsB (after Cert.ReferenceIdeal.Line.dot0 (after Cert.ReferenceIdeal.Line.opsA (launchContents m' c)))))) a9_v3
  have a10_v6 := Cert.Agree.Product2.keep_v6 m ρ c (after Cert.ReferenceIdeal.Line.opsC (after Cert.ReferenceIdeal.Line.dot1 (after Cert.ReferenceIdeal.Line.opsB (after Cert.ReferenceIdeal.Line.dot0 (after Cert.ReferenceIdeal.Line.opsA (launchContents m' c)))))) a9_v6
  have a10_v29 := Cert.Agree.Product2.keep_v29 m ρ c (after Cert.ReferenceIdeal.Line.opsC (after Cert.ReferenceIdeal.Line.dot1 (after Cert.ReferenceIdeal.Line.opsB (after Cert.ReferenceIdeal.Line.dot0 (after Cert.ReferenceIdeal.Line.opsA (launchContents m' c)))))) a9_v29
  have a10_arg7 := Cert.Agree.Product2.keep_arg7 m ρ c (after Cert.ReferenceIdeal.Line.opsC (after Cert.ReferenceIdeal.Line.dot1 (after Cert.ReferenceIdeal.Line.opsB (after Cert.ReferenceIdeal.Line.dot0 (after Cert.ReferenceIdeal.Line.opsA (launchContents m' c)))))) a9_arg7
  have a10_arg8 := Cert.Agree.Product2.keep_arg8 m ρ c (after Cert.ReferenceIdeal.Line.opsC (after Cert.ReferenceIdeal.Line.dot1 (after Cert.ReferenceIdeal.Line.opsB (after Cert.ReferenceIdeal.Line.dot0 (after Cert.ReferenceIdeal.Line.opsA (launchContents m' c)))))) a9_arg8
  have a10_arg9 := Cert.Agree.Product2.keep_arg9 m ρ c (after Cert.ReferenceIdeal.Line.opsC (after Cert.ReferenceIdeal.Line.dot1 (after Cert.ReferenceIdeal.Line.opsB (after Cert.ReferenceIdeal.Line.dot0 (after Cert.ReferenceIdeal.Line.opsA (launchContents m' c)))))) a9_arg9
  have a12_v83 := Cert.Agree.D.out_v83 (Cert.KernelIdeal.Gen.W10 m ρ c) (after Cert.ReferenceIdeal.Line.dot2 (after Cert.ReferenceIdeal.Line.opsC (after Cert.ReferenceIdeal.Line.dot1 (after Cert.ReferenceIdeal.Line.opsB (after Cert.ReferenceIdeal.Line.dot0 (after Cert.ReferenceIdeal.Line.opsA (launchContents m' c))))))) a10_v29 a10_v3 a10_v6 a10_v66 a10_arg7
  have a12_v3 := Cert.Agree.D.keep_v3 (Cert.KernelIdeal.Gen.W10 m ρ c) (after Cert.ReferenceIdeal.Line.dot2 (after Cert.ReferenceIdeal.Line.opsC (after Cert.ReferenceIdeal.Line.dot1 (after Cert.ReferenceIdeal.Line.opsB (after Cert.ReferenceIdeal.Line.dot0 (after Cert.ReferenceIdeal.Line.opsA (launchContents m' c))))))) a10_v3
  have a12_v6 := Cert.Agree.D.keep_v6 (Cert.KernelIdeal.Gen.W10 m ρ c) (after Cert.ReferenceIdeal.Line.dot2 (after Cert.ReferenceIdeal.Line.opsC (after Cert.ReferenceIdeal.Line.dot1 (after Cert.ReferenceIdeal.Line.opsB (after Cert.ReferenceIdeal.Line.dot0 (after Cert.ReferenceIdeal.Line.opsA (launchContents m' c))))))) a10_v6
  have a12_v29 := Cert.Agree.D.keep_v29 (Cert.KernelIdeal.Gen.W10 m ρ c) (after Cert.ReferenceIdeal.Line.dot2 (after Cert.ReferenceIdeal.Line.opsC (after Cert.ReferenceIdeal.Line.dot1 (after Cert.ReferenceIdeal.Line.opsB (after Cert.ReferenceIdeal.Line.dot0 (after Cert.ReferenceIdeal.Line.opsA (launchContents m' c))))))) a10_v29
  have a12_arg8 := Cert.Agree.D.keep_arg8 (Cert.KernelIdeal.Gen.W10 m ρ c) (after Cert.ReferenceIdeal.Line.dot2 (after Cert.ReferenceIdeal.Line.opsC (after Cert.ReferenceIdeal.Line.dot1 (after Cert.ReferenceIdeal.Line.opsB (after Cert.ReferenceIdeal.Line.dot0 (after Cert.ReferenceIdeal.Line.opsA (launchContents m' c))))))) a10_arg8
  have a12_arg9 := Cert.Agree.D.keep_arg9 (Cert.KernelIdeal.Gen.W10 m ρ c) (after Cert.ReferenceIdeal.Line.dot2 (after Cert.ReferenceIdeal.Line.opsC (after Cert.ReferenceIdeal.Line.dot1 (after Cert.ReferenceIdeal.Line.opsB (after Cert.ReferenceIdeal.Line.dot0 (after Cert.ReferenceIdeal.Line.opsA (launchContents m' c))))))) a10_arg9
  have a13_v84 := Cert.Agree.Product3.out_v84 m ρ c (after Cert.ReferenceIdeal.Line.opsD (after Cert.ReferenceIdeal.Line.dot2 (after Cert.ReferenceIdeal.Line.opsC (after Cert.ReferenceIdeal.Line.dot1 (after Cert.ReferenceIdeal.Line.opsB (after Cert.ReferenceIdeal.Line.dot0 (after Cert.ReferenceIdeal.Line.opsA (launchContents m' c)))))))) a12_v83 a12_arg8
  have a13_v3 := Cert.Agree.Product3.keep_v3 m ρ c (after Cert.ReferenceIdeal.Line.opsD (after Cert.ReferenceIdeal.Line.dot2 (after Cert.ReferenceIdeal.Line.opsC (after Cert.ReferenceIdeal.Line.dot1 (after Cert.ReferenceIdeal.Line.opsB (after Cert.ReferenceIdeal.Line.dot0 (after Cert.ReferenceIdeal.Line.opsA (launchContents m' c)))))))) a12_v3
  have a13_v6 := Cert.Agree.Product3.keep_v6 m ρ c (after Cert.ReferenceIdeal.Line.opsD (after Cert.ReferenceIdeal.Line.dot2 (after Cert.ReferenceIdeal.Line.opsC (after Cert.ReferenceIdeal.Line.dot1 (after Cert.ReferenceIdeal.Line.opsB (after Cert.ReferenceIdeal.Line.dot0 (after Cert.ReferenceIdeal.Line.opsA (launchContents m' c)))))))) a12_v6
  have a13_v29 := Cert.Agree.Product3.keep_v29 m ρ c (after Cert.ReferenceIdeal.Line.opsD (after Cert.ReferenceIdeal.Line.dot2 (after Cert.ReferenceIdeal.Line.opsC (after Cert.ReferenceIdeal.Line.dot1 (after Cert.ReferenceIdeal.Line.opsB (after Cert.ReferenceIdeal.Line.dot0 (after Cert.ReferenceIdeal.Line.opsA (launchContents m' c)))))))) a12_v29
  have a13_arg9 := Cert.Agree.Product3.keep_arg9 m ρ c (after Cert.ReferenceIdeal.Line.opsD (after Cert.ReferenceIdeal.Line.dot2 (after Cert.ReferenceIdeal.Line.opsC (after Cert.ReferenceIdeal.Line.dot1 (after Cert.ReferenceIdeal.Line.opsB (after Cert.ReferenceIdeal.Line.dot0 (after Cert.ReferenceIdeal.Line.opsA (launchContents m' c)))))))) a12_arg9
  exact Cert.Agree.E.out_v100 (Cert.KernelIdeal.Gen.W13 m ρ c) (after Cert.ReferenceIdeal.Line.dot3 (after Cert.ReferenceIdeal.Line.opsD (after Cert.ReferenceIdeal.Line.dot2 (after Cert.ReferenceIdeal.Line.opsC (after Cert.ReferenceIdeal.Line.dot1 (after Cert.ReferenceIdeal.Line.opsB (after Cert.ReferenceIdeal.Line.dot0 (after Cert.ReferenceIdeal.Line.opsA (launchContents m' c))))))))) a13_v29 a13_v3 a13_v6 a13_v84 a13_arg9

end Cert.Agree

end
-- ==== Proof.lean ====
/-
  The kernel is a four-layer graph convolution: with the edge list extended by a self-loop per node, the degree of a node
  the number of edges ending at it, and the weight of an edge the product of the inverse square roots of its two nodes'
  degrees (zero where a degree is not positive), each layer multiplies the node features by a weight matrix, gathers the
  product's rows at the edges' start nodes, scales each by its edge's weight, adds them up at the edges' end nodes, and adds
  a bias row; the first three layers clamp at zero. The kernel computes the four matrix products on the matrix unit, ten row
  blocks of 5000 nodes each, with both factors rounded to a shorter float format on the way in; the reference computes
  them with one host operation each; everything around the products is the same line of host operations in both programs.

  On the extended reals rounding is the identity, and the product of a row block with the weight matrix is the same rows
  of the whole product, so each region leaves in its result array exactly what the reference's product operation leaves
  (Rows0 … Rows3). Agreement of the two programs' buffers is then carried from the launch to the return, stretch by
  stretch (AgreeA … AgreeE for the host operations, AgreeProduct0 … 3 for the products, AgreeAll for the chain). Only the
  regrouping of a finite sum is used, so the finiteness of the inputs is never needed.

  The three frame claims: the two kernels' by their frame certificates, the reference's by its run (RefRun); the
  idealization rewrote no operation, so there is nothing to preserve.
-/
import proofs.«174991_j10153302687991_1_alg».proof.Defs
import proofs.«174991_j10153302687991_1_alg».proof.Proof.Gen.Kernel
import proofs.«174991_j10153302687991_1_alg».proof.Proof.Gen.Kernel.Skeleton
import proofs.«174991_j10153302687991_1_alg».proof.Proof.Gen.Kernel.Launch
import proofs.«174991_j10153302687991_1_alg».proof.Proof.Gen.Kernel.Points
import proofs.«174991_j10153302687991_1_alg».proof.Proof.Gen.Kernel.Frame
import proofs.«174991_j10153302687991_1_alg».proof.Proof.Gen.KernelIdeal
import proofs.«174991_j10153302687991_1_alg».proof.Proof.Gen.KernelIdeal.Skeleton
import proofs.«174991_j10153302687991_1_alg».proof.Proof.Gen.KernelIdeal.Launch
import proofs.«174991_j10153302687991_1_alg».proof.Proof.Gen.KernelIdeal.Points
import proofs.«174991_j10153302687991_1_alg».proof.Proof.Gen.KernelIdeal.Frame
import proofs.«174991_j10153302687991_1_alg».proof.Proof.Gen.ReferenceIdeal
import proofs.«174991_j10153302687991_1_alg».proof.Proof.Gen.Pre_finite_inputs
import proofs.«174991_j10153302687991_1_alg».proof.Proof.WholeRun
import proofs.«174991_j10153302687991_1_alg».proof.Proof.RefRun
import proofs.«174991_j10153302687991_1_alg».proof.Proof.AgreeAll
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_reference : Cert.frame_ReferenceIdeal := fun m ρ _ =>
  (θ_run Cert.ReferenceIdeal.defs _ _).mono (fun _ h c => (h c).2) (Cert.ReferenceIdeal.Line.run_ref (F := Ideal) m ρ)

/-- Both idealized programs run, and the reference's result is the kernel's. -/
theorem algebraic : Cert.algebraic_KernelIdeal_ReferenceIdeal := by
  intro m ρ m' ρ' _ hagree
  refine ⟨fun c => Cert.KernelIdeal.Gen.W14 m ρ c (Proc.devRef .tc Cert.KernelIdeal.main_v100),
    Cert.KernelIdeal.WholeRun.run_result (F := Ideal) m ρ, ?_⟩
  refine (θ_run Cert.ReferenceIdeal.defs _ _).mono (fun _ h c => ⟨(h c).1.trans ?_, (h c).2⟩)
    (Cert.ReferenceIdeal.Line.run_ref (F := Ideal) m' ρ')
  obtain ⟨g0, g1, g2, g3, g4, g5, g6, g7, g8, g9⟩ := hagree c
  exact (Cert.Agree.result_agree m ρ m' c g0 g1 g2 g3 g4 g5 g6 g7 g8 g9).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
